-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x49152 : Shape := ⟨2, ![1024, 49152]⟩
abbrev S1024 : Shape := ⟨1, ![1024]⟩
abbrev S2048x49152 : Shape := ⟨2, ![2048, 49152]⟩
abbrev S49152x2048 : Shape := ⟨2, ![49152, 2048]⟩
abbrev S2048 : Shape := ⟨1, ![2048]⟩
abbrev S_ : Shape := ⟨0, ![]⟩

class Facts : Prop where
  bcast_S_S1024x49152 : S_.BroadcastsInDim S1024x49152 (![] : Fin 0 → Fin S1024x49152.rank)
  reducesTo_S1024x49152_S_d0_1 : S1024x49152.ReducesTo [0, 1] S_
  h_S_ : 0 < S_.numel
  bcast_S_S2048x49152 : S_.BroadcastsInDim S2048x49152 (![] : Fin 0 → Fin S2048x49152.rank)
  reducesTo_S2048x49152_S_d0_1 : S2048x49152.ReducesTo [0, 1] S_
  bcast_S_S49152x2048 : S_.BroadcastsInDim S49152x2048 (![] : Fin 0 → Fin S49152x2048.rank)
  reducesTo_S49152x2048_S_d0_1 : S49152x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S1024x49152 .f32) (main_arg1 : IVec S1024 32) (main_arg2 : FVec F S2048x49152 .f32) (main_arg3 : FVec F S49152x2048 .f32) (main_arg4 : FVec F S2048 .f32) : IVec S_ 1 :=
  let main_v0 : FVec F S1024x49152 .f32 := Host.absf main_arg0
  let main_cst : FVec F S_ .f32 := constant S_ .f32 0x7F800000#32
  let main_v1 : FVec F S1024x49152 .f32 := broadcastInDim S1024x49152 ![] bcast_S_S1024x49152 main_cst
  let main_v2 : IVec S1024x49152 1 := cmpf .olt main_v0 main_v1
  let main_c : IVec S_ 1 := constantI S_ 1 1#1
  let main_v3 : IVec S_ 1 := (fun x v => Host.reduce IntOp.andi x v reducesTo_S1024x49152_S_d0_1 h_S_) main_v2 main_c
  let main_v4 : FVec F S2048x49152 .f32 := Host.absf main_arg2
  let main_cst_0 : FVec F S_ .f32 := constant S_ .f32 0x7F800000#32
  let main_v5 : FVec F S2048x49152 .f32 := broadcastInDim S2048x49152 ![] bcast_S_S2048x49152 main_cst_0
  let main_v6 : IVec S2048x49152 1 := cmpf .olt main_v4 main_v5
  let main_c_1 : IVec S_ 1 := constantI S_ 1 1#1
  let main_v7 : IVec S_ 1 := (fun x v => Host.reduce IntOp.andi x v reducesTo_S2048x49152_S_d0_1 h_S_) main_v6 main_c_1
  let main_v8 : IVec S_ 1 := andi main_v3 main_v7
  let main_v9 : FVec F S49152x2048 .f32 := Host.absf main_arg3
  let main_cst_2 : FVec F S_ .f32 := constant S_ .f32 0x7F800000#32
  let main_v10 : FVec F S49152x2048 .f32 := broadcastInDim S49152x2048 ![] bcast_S_S49152x2048 main_cst_2
  let main_v11 : IVec S49152x2048 1 := cmpf .olt main_v9 main_v10
  let main_c_3 : IVec S_ 1 := constantI S_ 1 1#1
  let main_v12 : IVec S_ 1 := (fun x v => Host.reduce IntOp.andi x v reducesTo_S49152x2048_S_d0_1 h_S_) main_v11 main_c_3
  let main_v13 : IVec S_ 1 := andi main_v8 main_v12
  let main_v14 : FVec F S2048 .f32 := Host.absf main_arg4
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S1024x49152 : Shape := ⟨2, ![1024, 49152]⟩
abbrev S1024 : Shape := ⟨1, ![1024]⟩
abbrev S2048x49152 : Shape := ⟨2, ![2048, 49152]⟩
abbrev S49152x2048 : Shape := ⟨2, ![49152, 2048]⟩
abbrev S2048 : Shape := ⟨1, ![2048]⟩
abbrev S1x2048 : Shape := ⟨2, ![1, 2048]⟩
abbrev S1024x2048 : Shape := ⟨2, ![1024, 2048]⟩
abbrev S2048x2048 : Shape := ⟨2, ![2048, 2048]⟩
abbrev S_ : Shape := ⟨0, ![]⟩
abbrev S64x2048 : Shape := ⟨2, ![64, 2048]⟩
abbrev S1024x1 : Shape := ⟨2, ![1024, 1]⟩
abbrev S64 : Shape := ⟨1, ![64]⟩
abbrev S64x1 : Shape := ⟨2, ![64, 1]⟩
abbrev S2048x64 : Shape := ⟨2, ![2048, 64]⟩
abbrev S2048x1 : Shape := ⟨2, ![2048, 1]⟩
abbrev S1x64 : Shape := ⟨2, ![1, 64]⟩
abbrev S512x1024 : Shape := ⟨2, ![512, 1024]⟩
abbrev S512x2048 : Shape := ⟨2, ![512, 2048]⟩
abbrev S1024x1024 : Shape := ⟨2, ![1024, 1024]⟩

abbrev nBuf : Space → Nat
  | .hbm => 42
  | .vmem => 16
  | .smem => 0
  | _ => 0

abbrev bufTy : (tb : Table) → Fin (tcTables nBuf tb) → BufTy
  | .hbm, ⟨0, _⟩ => ⟨S1024x49152, .f32⟩
  | .hbm, ⟨1, _⟩ => ⟨S1024, .i32⟩
  | .hbm, ⟨2, _⟩ => ⟨S2048x49152, .f32⟩
  | .hbm, ⟨3, _⟩ => ⟨S49152x2048, .f32⟩
  | .hbm, ⟨4, _⟩ => ⟨S2048, .f32⟩
  | .hbm, ⟨5, _⟩ => ⟨S49152x2048, .bf16⟩
  | .hbm, ⟨6, _⟩ => ⟨S1x2048, .f32⟩
  | .hbm, ⟨7, _⟩ => ⟨S1024x2048, .f32⟩
  | .hbm, ⟨8, _⟩ => ⟨S1x2048, .f32⟩
  | .hbm, ⟨9, _⟩ => ⟨S2048x2048, .f32⟩
  | .hbm, ⟨10, _⟩ => ⟨S_, .f32⟩
  | .hbm, ⟨11, _⟩ => ⟨S64x2048, .f32⟩
  | .hbm, ⟨12, _⟩ => ⟨S1024x1, .i32⟩
  | .hbm, ⟨13, _⟩ => ⟨S64x2048, .f32⟩
  | .hbm, ⟨14, _⟩ => ⟨S_, .f32⟩
  | .hbm, ⟨15, _⟩ => ⟨S1024, .f32⟩
  | .hbm, ⟨16, _⟩ => ⟨S_, .f32⟩
  | .hbm, ⟨17, _⟩ => ⟨S64, .f32⟩
  | .hbm, ⟨18, _⟩ => ⟨S1024x1, .i32⟩
  | .hbm, ⟨19, _⟩ => ⟨S64, .f32⟩
  | .hbm, ⟨20, _⟩ => ⟨S64x1, .f32⟩
  | .hbm, ⟨21, _⟩ => ⟨S64x2048, .f32⟩
  | .hbm, ⟨22, _⟩ => ⟨S64x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S64x2048, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S2048x64, .f32⟩
  | .hbm, ⟨32, _⟩ => ⟨S2048x64, .f32⟩
  | .hbm, ⟨33, _⟩ => ⟨S2048x1, .f32⟩
  | .hbm, ⟨34, _⟩ => ⟨S1x64, .f32⟩
  | .hbm, ⟨35, _⟩ => ⟨S2048x64, .f32⟩
  | .hbm, ⟨36, _⟩ => ⟨S2048x64, .f32⟩
  | .hbm, ⟨37, _⟩ => ⟨S2048x64, .f32⟩
  | .hbm, ⟨38, _⟩ => ⟨S_, .f32⟩
  | .hbm, ⟨39, _⟩ => ⟨S2048x64, .f32⟩
  | .hbm, ⟨40, _⟩ => ⟨S2048x64, .f32⟩
  | .hbm, ⟨41, _⟩ => ⟨S2048x64, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1024x1024, .f32⟩
  | .local _ .vmem, ⟨9, _⟩ => ⟨S1024x1024, .f32⟩
  | .local _ .vmem, ⟨10, _⟩ => ⟨S1024x2048, .bf16⟩
  | .local _ .vmem, ⟨11, _⟩ => ⟨S1024x2048, .bf16⟩
  | .local _ .vmem, ⟨12, _⟩ => ⟨S1x2048, .f32⟩
  | .local _ .vmem, ⟨13, _⟩ => ⟨S1024x2048, .f32⟩
  | .local _ .vmem, ⟨14, _⟩ => ⟨S1024x2048, .f32⟩
  | .local _ .vmem, ⟨15, _⟩ => ⟨S1024x2048, .f32⟩
  | _, _ => ⟨S1024x49152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_0 : Ref sig .tc := ⟨.hbm, 14, rfl⟩
abbrev main_call0_v8 : Ref sig .tc := ⟨.hbm, 15, rfl⟩
abbrev main_call0_cst_1 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_call0_v0 : Ref sig .tc := ⟨.hbm, 23, rfl⟩
abbrev main_call0_call0_cst : Ref sig .tc := ⟨.hbm, 24, rfl⟩
abbrev main_call0_call0_v1 : Ref sig .tc := ⟨.hbm, 25, rfl⟩
abbrev main_call0_v15 : Ref sig .tc := ⟨.hbm, 26, rfl⟩
abbrev main_call0_call1_v0 : Ref sig .tc := ⟨.hbm, 27, rfl⟩
abbrev main_call0_call1_cst : Ref sig .tc := ⟨.hbm, 28, rfl⟩
abbrev main_call0_call1_v1 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_cst_2 : Ref sig .tc := ⟨.hbm, 38, rfl⟩
abbrev main_call0_v24 : Ref sig .tc := ⟨.hbm, 39, rfl⟩
abbrev main_call0_v25 : Ref sig .tc := ⟨.hbm, 40, rfl⟩
abbrev main_v0 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 48], ![false, false]⟩

def k0_cond2 (i : grid0.Coords) : BitVec 1 :=
  let arg1 : BitVec 32 := BitVec.ofNat 32 (i 1).val
  let c47_i32 : BitVec 32 := 47#32
  let v13 : BitVec 1 := Scalar.cmpi .eq arg1 c47_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 48], ![false, false]⟩

def k1_cond2 (i : grid1.Coords) : BitVec 1 :=
  let arg1 : BitVec 32 := BitVec.ofNat 32 (i 1).val
  let c47_i32 : BitVec 32 := 47#32
  let v13 : BitVec 1 := Scalar.cmpi .eq arg1 c47_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  shapeCasts_S2048_S1x2048 : S2048.ShapeCasts S1x2048
  bcast_S_S64x2048 : S_.BroadcastsInDim S64x2048 (![] : Fin 0 → Fin S64x2048.rank)
  bcast_S1024_S1024x1_0 : S1024.BroadcastsInDim S1024x1 (![0] : Fin 1 → Fin S1024x1.rank)
  bcast_S_S1024 : S_.BroadcastsInDim S1024 (![] : Fin 0 → Fin S1024.rank)
  bcast_S_S64 : S_.BroadcastsInDim S64 (![] : Fin 0 → Fin S64.rank)
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  reducesTo_S2048x2048_S2048_d1 : S2048x2048.ReducesTo [1] S2048
  h_S_ : 0 < S_.numel
  reducesTo_S64x2048_S64_d1 : S64x2048.ReducesTo [1] S64
  transposes_S64x2048_S2048x64_1_0 : S64x2048.Transposes [1, 0] S2048x64
  bcast_S2048_S2048x1_0 : S2048.BroadcastsInDim S2048x1 (![0] : Fin 1 → Fin S2048x1.rank)
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S1024x1024_S1024x1024_0_0 : ∀ a, (![0, 0] : Fin 2 → Nat) a + S1024x1024.size a ≤ S1024x1024.size a
  h_S1024x1024 : 0 < S1024x1024.numel
  broadcasts_S1x2048_S1024x2048 : S1x2048.Broadcasts S1024x2048
  scatter_S64x2048_S1024x1_S1024x2048_1_0_0_1_wf : ScatterDims.WF S64x2048 S1024x1 S1024x2048 [1] [0] [0] 1
  scatter_S64_S1024x1_S1024_n_0_0_1_wf : ScatterDims.WF S64 S1024x1 S1024 [] [0] [0] 1
  dot_S2048x2048_S2048x64_S2048x64_1_0_0_1_n_n_wf : DotDims.WF S2048x2048 S2048x64 S2048x64 [1] [0] [0] [1] [] []
  dot_S512x1024_S1024x2048_S512x2048_1_0_0_1_n_n_wf : DotDims.WF S512x1024 S1024x2048 S512x2048 [1] [0] [0] [1] [] []
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x49152.size a
  hwx0_0 : ∀ i : grid0.Coords, EltTy.bits .f32 = 32 ∨ (Rect.block (s := S1024x49152) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S49152x2048.size a
  hwx0_1 : ∀ i : grid0.Coords, EltTy.bits .bf16 = 32 ∨ (Rect.block (s := S49152x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S1024x2048.size a
  hwx0_3 : ∀ i : grid0.Coords, EltTy.bits .f32 = 32 ∨ (Rect.block (s := S1024x2048) S512x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S2048x49152.size a
  hwx1_0 : ∀ i : grid1.Coords, EltTy.bits .f32 = 32 ∨ (Rect.block (s := S2048x49152) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S49152x2048.size a
  hwx1_1 : ∀ i : grid1.Coords, EltTy.bits .bf16 = 32 ∨ (Rect.block (s := S49152x2048) S1024x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S2048x2048.size a
  hwx1_3 : ∀ i : grid1.Coords, EltTy.bits .f32 = 32 ∨ (Rect.block (s := S2048x2048) S1024x2048.size (cc1_transform_3 i) (hinb1_3 i)).WholeWords (EltTy.packing .f32)

variable [Facts₀]

def scatter_S64x2048_S1024x1_S1024x2048_1_0_0_1 : ScatterDims S64x2048 S1024x1 S1024x2048 where
  updateWindowDims := [1]
  insertedWindowDims := [0]
  scatterDimsToOperandDims := [0]
  indexVectorDim := 1
  wf := scatter_S64x2048_S1024x1_S1024x2048_1_0_0_1_wf
def scatter_S64_S1024x1_S1024_n_0_0_1 : ScatterDims S64 S1024x1 S1024 where
  updateWindowDims := []
  insertedWindowDims := [0]
  scatterDimsToOperandDims := [0]
  indexVectorDim := 1
  wf := scatter_S64_S1024x1_S1024_n_0_0_1_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v3) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v4) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S1024x49152 : Shape := ⟨2, ![1024, 49152]⟩
abbrev S1024 : Shape := ⟨1, ![1024]⟩
abbrev S2048x49152 : Shape := ⟨2, ![2048, 49152]⟩
abbrev S49152x2048 : Shape := ⟨2, ![49152, 2048]⟩
abbrev S2048 : Shape := ⟨1, ![2048]⟩
abbrev S1024x2048 : Shape := ⟨2, ![1024, 2048]⟩
abbrev S1x2048 : Shape := ⟨2, ![1, 2048]⟩
abbrev S2048x2048 : Shape := ⟨2, ![2048, 2048]⟩
abbrev S_ : Shape := ⟨0, ![]⟩
abbrev S64x2048 : Shape := ⟨2, ![64, 2048]⟩
abbrev S1024x1 : Shape := ⟨2, ![1024, 1]⟩
abbrev S64 : Shape := ⟨1, ![64]⟩
abbrev S64x1 : Shape := ⟨2, ![64, 1]⟩
abbrev S2048x64 : Shape := ⟨2, ![2048, 64]⟩
abbrev S2048x1 : Shape := ⟨2, ![2048, 1]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S1024x49152, .f32⟩
  | .hbm, ⟨1, _⟩ => ⟨S1024, .i32⟩
  | .hbm, ⟨2, _⟩ => ⟨S2048x49152, .f32⟩
  | .hbm, ⟨3, _⟩ => ⟨S49152x2048, .f32⟩
  | .hbm, ⟨4, _⟩ => ⟨S2048, .f32⟩
  | .hbm, ⟨5, _⟩ => ⟨S1024x2048, .f32⟩
  | .hbm, ⟨6, _⟩ => ⟨S1x2048, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S1x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S64x2048, .f32⟩
  | .hbm, ⟨15, _⟩ => ⟨S1024x1, .i32⟩
  | .hbm, ⟨16, _⟩ => ⟨S64x2048, .f32⟩
  | .hbm, ⟨17, _⟩ => ⟨S_, .f32⟩
  | .hbm, ⟨18, _⟩ => ⟨S1024, .f32⟩
  | .hbm, ⟨19, _⟩ => ⟨S_, .f32⟩
  | .hbm, ⟨20, _⟩ => ⟨S64, .f32⟩
  | .hbm, ⟨21, _⟩ => ⟨S1024x1, .i32⟩
  | .hbm, ⟨22, _⟩ => ⟨S64, .f32⟩
  | .hbm, ⟨23, _⟩ => ⟨S64x1, .f32⟩
  | .hbm, ⟨24, _⟩ => ⟨S64x2048, .f32⟩
  | .hbm, ⟨25, _⟩ => ⟨S64x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S64x2048, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S2048x64, .f32⟩
  | .hbm, ⟨35, _⟩ => ⟨S2048x64, .f32⟩
  | .hbm, ⟨36, _⟩ => ⟨S2048x1, .f32⟩
  | .hbm, ⟨37, _⟩ => ⟨S1x64, .f32⟩
  | .hbm, ⟨38, _⟩ => ⟨S2048x64, .f32⟩
  | .hbm, ⟨39, _⟩ => ⟨S2048x64, .f32⟩
  | .hbm, ⟨40, _⟩ => ⟨S2048x64, .f32⟩
  | .hbm, ⟨41, _⟩ => ⟨S_, .f32⟩
  | .hbm, ⟨42, _⟩ => ⟨S2048x64, .f32⟩
  | .hbm, ⟨43, _⟩ => ⟨S2048x64, .f32⟩
  | .hbm, ⟨44, _⟩ => ⟨S2048x64, .f32⟩
  | _, _ => ⟨S1024x49152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_v18 : Ref sig .tc := ⟨.hbm, 29, rfl⟩
abbrev main_call1_v0 : Ref sig .tc := ⟨.hbm, 30, rfl⟩
abbrev main_call1_cst : Ref sig .tc := ⟨.hbm, 31, rfl⟩
abbrev main_call1_v1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  bcast_S1x2048_S2048x2048_0_1 : S1x2048.BroadcastsInDim S2048x2048 (![0, 1] : Fin 2 → Fin S2048x2048.rank)
  bcast_S_S64x2048 : S_.BroadcastsInDim S64x2048 (![] : Fin 0 → Fin S64x2048.rank)
  bcast_S1024_S1024x1_0 : S1024.BroadcastsInDim S1024x1 (![0] : Fin 1 → Fin S1024x1.rank)
  bcast_S_S1024 : S_.BroadcastsInDim S1024 (![] : Fin 0 → Fin S1024.rank)
  bcast_S_S64 : S_.BroadcastsInDim S64 (![] : Fin 0 → Fin S64.rank)
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  reducesTo_S2048x2048_S2048_d1 : S2048x2048.ReducesTo [1] S2048
  h_S_ : 0 < S_.numel
  reducesTo_S64x2048_S64_d1 : S64x2048.ReducesTo [1] S64
  transposes_S64x2048_S2048x64_1_0 : S64x2048.Transposes [1, 0] S2048x64
  bcast_S2048_S2048x1_0 : S2048.BroadcastsInDim S2048x1 (![0] : Fin 1 → Fin S2048x1.rank)
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  dot_S1024x49152_S49152x2048_S1024x2048_1_0_0_1_n_n_wf : DotDims.WF S1024x49152 S49152x2048 S1024x2048 [1] [0] [0] [1] [] []
  dot_S2048x49152_S49152x2048_S2048x2048_1_0_0_1_n_n_wf : DotDims.WF S2048x49152 S49152x2048 S2048x2048 [1] [0] [0] [1] [] []
  scatter_S64x2048_S1024x1_S1024x2048_1_0_0_1_wf : ScatterDims.WF S64x2048 S1024x1 S1024x2048 [1] [0] [0] 1
  scatter_S64_S1024x1_S1024_n_0_0_1_wf : ScatterDims.WF S64 S1024x1 S1024 [] [0] [0] 1
  dot_S2048x2048_S2048x64_S2048x64_1_0_0_1_n_n_wf : DotDims.WF S2048x2048 S2048x64 S2048x64 [1] [0] [0] [1] [] []

variable [Facts₀]

def dot_S1024x49152_S49152x2048_S1024x2048_1_0_0_1_n_n : DotDims S1024x49152 S49152x2048 S1024x2048 where
  lhsContracting := [1]
  rhsContracting := [0]
  lhsNonContracting := [0]
  rhsNonContracting := [1]
  lhsBatch := []
  rhsBatch := []
  wf := dot_S1024x49152_S49152x2048_S1024x2048_1_0_0_1_n_n_wf
def dot_S2048x49152_S49152x2048_S2048x2048_1_0_0_1_n_n : DotDims S2048x49152 S49152x2048 S2048x2048 where
  lhsContracting := [1]
  rhsContracting := [0]
  lhsNonContracting := [0]
  rhsNonContracting := [1]
  lhsBatch := []
  rhsBatch := []
  wf := dot_S2048x49152_S49152x2048_S2048x2048_1_0_0_1_n_n_wf
def scatter_S64x2048_S1024x1_S1024x2048_1_0_0_1 : ScatterDims S64x2048 S1024x1 S1024x2048 where
  updateWindowDims := [1]
  insertedWindowDims := [0]
  scatterDimsToOperandDims := [0]
  indexVectorDim := 1
  wf := scatter_S64x2048_S1024x1_S1024x2048_1_0_0_1_wf
def scatter_S64_S1024x1_S1024_n_0_0_1 : ScatterDims S64 S1024x1 S1024 where
  updateWindowDims := []
  insertedWindowDims := [0]
  scatterDimsToOperandDims := [0]
  indexVectorDim := 1
  wf := scatter_S64_S1024x1_S1024_n_0_0_1_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

class Facts : Prop extends Facts₀ where

variable [Facts]
-- ==== Proof.Bits.K0Shared.lean ====
/-
  Region 0 (the support rows' product, grid 2 × 48): what its case-by-case runs and its proof data share.
  A grid point t is the pair (row tile t / 48, reduction step t % 48). The body resets its accumulator when the
  step is 0, adds one 512×1024 by 1024×2048 product at every step, and stores accumulator + bias into the output
  block when the step is 47; the output block is idle, and not written back, at every other step.
-/
import proofs.«126321_j46351287059071_2_alg».proof.Proof.Gen.Kernel.Launch
import proofs.«126321_j46351287059071_2_alg».proof.Proof.Gen.Kernel.Skeleton
import proofs.«126321_j46351287059071_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, fetched there or not:
    where it is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "the reduction step is 0", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 48 = 0 :=
  (by decide +kernel : ∀ t : Fin grid0.N, cond0_0 (grid0.coords t) ↔ t.val % 48 = 0)
/-- "the reduction step is the last one, 47". -/
abbrev cond0_1 (i : grid0.Coords) : Prop := k0_cond2 i = 1#1
theorem hcond0_1 : ∀ t : Fin cfg0.N, cond0_1 (grid0.coords t) ↔ t.val % 48 = 47 :=
  (by decide +kernel : ∀ t : Fin grid0.N, cond0_1 (grid0.coords t) ↔ t.val % 48 = 47)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last step the output block is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last step it is live. -/
theorem liveAt0_3 : ∀ t : Fin cfg0.N, cond0_1 (grid0.coords t) → cfg0.idle 3 (grid0.coords t) = false := by decide +kernel

/-! ## The staging memrefs and the accumulator -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S512x2048 .f32 := Memref.whole cc0_scratch0
/-- Views through which the output block's and the accumulator's contents are stated. -/
abbrev VO0 : View sig .tc .vmem S512x2048 .f32 := (Memref.whole cc0_stg3_0 : Memref sig .tc .vmem S512x2048 .f32).view
abbrev VS0 : View sig .tc .vmem S512x2048 .f32 := scM0.view

/-- The core's other scoped buffers (the second region's staging buffers and accumulator), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant with the accumulator as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

end Cert.Kernel.Hand

end
-- ==== Proof.Bits.K0RunA.lean ====
/-
  Region 0, the case "step 0, not the last step": the accumulator is reset and one product is added. The run of the
  body on whole staging memrefs; the pieces the accumulator ends with are found by running the body.
-/
import proofs.«126321_j46351287059071_2_alg».proof.Proof.Bits.K0Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At step 0 (and not the last step): from the three inputs at their contents, the output block at anything (handed back
    untouched) and the accumulator at anything, the body runs and leaves the accumulator with the pieces LS0 written. -/
noncomputable def kernelRun0_A (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i)
    (x0 : Vec F S512x1024 .f32) (x1 : Vec F S1024x2048 .bf16) (x2 : Vec F S1x2048 .f32) :
    { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_kernel i arg2 harg2 arg3 harg3 arg4 harg4 arg5 harg5 arg6 harg6) K } := by
  refine ⟨?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Bits.K0RunB.lean ====
/-
  Region 0, the case "neither step 0 nor the last step": one product is added to the accumulator the step before left.
-/
import proofs.«126321_j46351287059071_2_alg».proof.Proof.Bits.K0Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At a middle step: from the three inputs at their contents, the output block at anything (handed back untouched) and
    the accumulator at xs0, the body runs and leaves the accumulator with the pieces LS0 written. -/
noncomputable def kernelRun0_B (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i)
    (x0 : Vec F S512x1024 .f32) (x1 : Vec F S1024x2048 .bf16) (x2 : Vec F S1x2048 .f32) (xs0 : Vec F S512x2048 .f32) :
    { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_kernel i arg2 harg2 arg3 harg3 arg4 harg4 arg5 harg5 arg6 harg6) K } := by
  refine ⟨?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Bits.K0RunC.lean ====
/-
  Region 0, the case "the last step": one product is added to the accumulator, and accumulator + bias is stored into
  the output block.
-/
import proofs.«126321_j46351287059071_2_alg».proof.Proof.Bits.K0Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At the last step: from the three inputs at their contents, the output block at anything and the accumulator at xs0,
    the body runs and leaves the output block with the pieces L3 written and the accumulator with LS0 written. -/
noncomputable def kernelRun0_C (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x1024 .f32) (x1 : Vec F S1024x2048 .bf16) (x2 : Vec F S1x2048 .f32) (xs0 : Vec F S512x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_kernel i arg2 harg2 arg3 harg3 arg4 harg4 arg5 harg5 arg6 harg6) K } := by
  refine ⟨?_, ?_, fun E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.Bits.K0Body.lean ====
/-
  Region 0: what the accumulator and the output block hold after every grid point, the region's invariant and proof
  data, and the body obligation.
  After point t the accumulator holds what the case of t leaves in it: at step 0 a function of the point's blocks alone,
  at a later step a function of the blocks and of what the point before left. The output block is stored only at the
  last step of a row tile, as a function of the blocks and the accumulator the step before left.
-/
import proofs.«126321_j46351287059071_2_alg».proof.Proof.Bits.K0RunA
import proofs.«126321_j46351287059071_2_alg».proof.Proof.Bits.K0RunB
import proofs.«126321_j46351287059071_2_alg».proof.Proof.Bits.K0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The pieces of case "step 0" tile the accumulator. -/
theorem scover0_A (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i) (x0 : Vec F S512x1024 .f32) (x1 : Vec F S1024x2048 .bf16) (x2 : Vec F S1x2048 .f32) (y : S512x2048.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S512x2048.size (by sl_kernel_rfl) y
/-- What case "step 0" leaves in the accumulator. -/
def sout0_A (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i) (x0 : Vec F S512x1024 .f32) (x1 : Vec F S1024x2048 .bf16) (x2 : Vec F S1x2048 .f32) : Vec F S512x2048 .f32 :=
  VS0.read (Elt F) (VS0.writes (Elt F) VS0.junk (kernelRun0_A c i arg2 harg2 arg3 harg3 arg4 harg4 arg5 harg5 arg6 harg6 hc0 hc1 x0 x1 x2).1)

/-- The pieces of a middle step tile the accumulator. -/
theorem scover0_B (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i) (x0 : Vec F S512x1024 .f32) (x1 : Vec F S1024x2048 .bf16) (x2 : Vec F S1x2048 .f32) (xs0 : Vec F S512x2048 .f32) (y : S512x2048.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S512x2048.size (by sl_kernel_rfl) y
/-- What a middle step leaves in the accumulator. -/
def sout0_B (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i) (x0 : Vec F S512x1024 .f32) (x1 : Vec F S1024x2048 .bf16) (x2 : Vec F S1x2048 .f32) (xs0 : Vec F S512x2048 .f32) : Vec F S512x2048 .f32 :=
  VS0.read (Elt F) (VS0.writes (Elt F) VS0.junk (kernelRun0_B c i arg2 harg2 arg3 harg3 arg4 harg4 arg5 harg5 arg6 harg6 hc0 hc1 x0 x1 x2 xs0).1)

/-- The last step's pieces tile the output block, -/
theorem cover0_C (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec F S512x1024 .f32) (x1 : Vec F S1024x2048 .bf16) (x2 : Vec F S1x2048 .f32) (xs0 : Vec F S512x2048 .f32) (y : S512x2048.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S512x2048.size (by sl_kernel_rfl) y
/-- and what it leaves there; -/
def out0_C (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec F S512x1024 .f32) (x1 : Vec F S1024x2048 .bf16) (x2 : Vec F S1x2048 .f32) (xs0 : Vec F S512x2048 .f32) : Vec F S512x2048 .f32 :=
  VO0.read (Elt F) (VO0.writes (Elt F) VO0.junk (kernelRun0_C c i arg2 harg2 arg3 harg3 arg4 harg4 arg5 harg5 arg6 harg6 hc0 hc1 x0 x1 x2 xs0).1)
/-- likewise for the accumulator. -/
theorem scover0_C (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec F S512x1024 .f32) (x1 : Vec F S1024x2048 .bf16) (x2 : Vec F S1x2048 .f32) (xs0 : Vec F S512x2048 .f32) (y : S512x2048.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S512x2048.size (by sl_kernel_rfl) y
def sout0_C (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec F S512x1024 .f32) (x1 : Vec F S1024x2048 .bf16) (x2 : Vec F S1x2048 .f32) (xs0 : Vec F S512x2048 .f32) : Vec F S512x2048 .f32 :=
  VS0.read (Elt F) (VS0.writes (Elt F) VS0.junk (kernelRun0_C c i arg2 harg2 arg3 harg3 arg4 harg4 arg5 harg5 arg6 harg6 hc0 hc1 x0 x1 x2 xs0).2.1)

/-- Contents nothing consults: the output block's at a point that neither stores it nor writes it back. -/
def idleOut0 : Vec F S512x2048 .f32 := VO0.read (Elt F) VO0.junk

/-! ## Point by point -/

/-- The output block's staging contents and the accumulator after the body at position n (a pair, in that order). -/
def outsAt0 (c : Dev nD) : (n : ℕ) → n < cfg0.N → Vec F S512x2048 .f32 × Vec F S512x2048 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 48 = 0 then
      if h1 : (n + 1) % 48 = 47 then
        False.elim (by omega)
      else
        (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 48 = 47 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 48 = 0) (h1 : ¬t.val % 48 = 47) :
    outsAt0 V c t.val t.isLt = (idleOut0, sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 48 = 0) (h1 : ¬t.val % 48 = 47) :
    outsAt0 V c t.val t.isLt = (idleOut0, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 48 = 0) (h1 : t.val % 48 = 47) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point: every scoped buffer that is no staging buffer of this region at anything. Afterwards: the
    accumulator at what the point before left, the others at anything; throughout, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

/-- The arrays as the region finds them; after the body each input's buffer at its block, the output's at outsAt0;
    the invariant PhiS0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Hand

end
-- ==== Proof.Bits.K0Oblig.lean ====
/-
  Region 0: the body obligation. At each point the closed forms of the two conditions say which case the point is
  in; that case's run applies to the blocks the inputs' buffers hold and to the accumulator the invariant hands over
  (anything at the very first point, what the point before left afterwards), and the invariant takes the accumulator
  back at this point's contents. The output block is handed back untouched away from the last step.
-/
import proofs.«126321_j46351287059071_2_alg».proof.Proof.Bits.K0Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The class invariant hands over the accumulator as a memref owned at some contents beside the other scoped buffers, -/
theorem PhiA0_split (c : Dev nD) :
    (Pipeline.ΦA spec0 c : sProp 𝕄) ⊢ iprop(iprop((∃ d, owns (c : Thread nD τ) scM0 fullShare d) ∗ others0 c) ∗ (∃ r, prngReg c r)) := by
  rw [PhiA0_eq]
/-- and is made of them again. -/
theorem PhiA0_join (c : Dev nD) :
    (iprop(iprop((∃ d, owns (c : Thread nD τ) scM0 fullShare d) ∗ others0 c) ∗ (∃ r, prngReg c r)) : sProp 𝕄) ⊢ Pipeline.ΦA spec0 c := by
  rw [PhiA0_eq]

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 96 := lt_of_lt_of_eq t.isLt (show cfg0.N = 96 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 48 = 0
  · have h1 : ¬t.val % 48 = 47 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A; (try dsimp only)
    by_cases hz : t.val = 0
    · rw [PhiS0_castSucc V c t, PhiS0_zero V c _ _ hz]
      iintro ⟨HP, Ho, ⟨%d0, H0⟩, ⟨%d1, H1⟩, ⟨%d2, H2⟩, ⟨%d3, H3⟩⟩
      ihave HP2 := (PhiA0_split c) $$ HP
      icases HP2 with ⟨⟨HS0, Hoth⟩, Hg⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 48 = 47
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 96 := N_0; omega
  rw [show (dat0 V c).Φ (Fin.last cfg0.N) = PhiS0 V c (Fin.last cfg0.N).val (Nat.le_of_lt_succ (Fin.last cfg0.N).isLt) from rfl, PhiS0_pos V c _ _ ht]
  iintro ⟨⟨HS0, Hoth⟩, Hg⟩
  iapply (PhiA0_join c)
  isplitl [HS0 Hoth]
  · isplitl [HS0]; · iexists _; iexact HS0
    iexact Hoth
  iexact Hg

end Cert.Kernel.Hand

end
-- ==== Proof.Bits.K1Shared.lean ====
/-
  Region 1 (the query rows' product, grid 2 × 48): what its case-by-case runs and its proof data share.
  A grid point t is the pair (row tile t / 48, reduction step t % 48). The body resets its accumulator when the
  step is 0, adds one 1024×1024 by 1024×2048 product at every step, and stores accumulator + bias into the output
  block when the step is 47; the output block is idle, and not written back, at every other step.
-/
import proofs.«126321_j46351287059071_2_alg».proof.Proof.Gen.Kernel.Launch
import proofs.«126321_j46351287059071_2_alg».proof.Proof.Gen.Kernel.Skeleton
import proofs.«126321_j46351287059071_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, fetched there or not:
    where it is not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "the reduction step is 0", as the body computes it from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 48 = 0 :=
  (by decide +kernel : ∀ t : Fin grid1.N, cond1_0 (grid1.coords t) ↔ t.val % 48 = 0)
/-- "the reduction step is the last one, 47". -/
abbrev cond1_1 (i : grid1.Coords) : Prop := k1_cond2 i = 1#1
theorem hcond1_1 : ∀ t : Fin cfg1.N, cond1_1 (grid1.coords t) ↔ t.val % 48 = 47 :=
  (by decide +kernel : ∀ t : Fin grid1.N, cond1_1 (grid1.coords t) ↔ t.val % 48 = 47)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last step the output block is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last step it is live. -/
theorem liveAt1_3 : ∀ t : Fin cfg1.N, cond1_1 (grid1.coords t) → cfg1.idle 3 (grid1.coords t) = false := by decide +kernel

/-! ## The staging memrefs and the accumulator -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x2048 .f32 := Memref.whole cc1_scratch0
/-- Views through which the output block's and the accumulator's contents are stated. -/
abbrev VO1 : View sig .tc .vmem S1024x2048 .f32 := (Memref.whole cc1_stg3_0 : Memref sig .tc .vmem S1024x2048 .f32).view
abbrev VS1 : View sig .tc .vmem S1024x2048 .f32 := scM1.view

/-- The core's other scoped buffers (the first region's staging buffers and accumulator), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant hands over the accumulator as a memref owned at some contents beside the other scoped buffers, -/
theorem PhiA1_split (c : Dev nD) :
    (Pipeline.ΦA spec1 c : sProp 𝕄) ⊢ iprop(iprop((∃ d, owns (c : Thread nD τ) scM1 fullShare d) ∗ others1 c) ∗ (∃ r, prngReg c r)) := by
  unfold Pipeline.ΦA others1; rw [scopedRest1_eq]; simp only [scM1, owns_whole]
  iintro ⟨⟨H0, H1, H2, H3, H4, H5, H6, H7, HS⟩, Hg⟩
  isplitl [H0 H1 H2 H3 H4 H5 H6 H7 HS]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg
/-- and is made of them again. -/
theorem PhiA1_join (c : Dev nD) :
    (iprop(iprop((∃ d, owns (c : Thread nD τ) scM1 fullShare d) ∗ others1 c) ∗ (∃ r, prngReg c r)) : sProp 𝕄) ⊢ Pipeline.ΦA spec1 c := by
  unfold Pipeline.ΦA others1; rw [scopedRest1_eq]; simp only [scM1, owns_whole]
  iintro ⟨⟨HS, H0, H1, H2, H3, H4, H5, H6, H7⟩, Hg⟩
  isplitl [H0 H1 H2 H3 H4 H5 H6 H7 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.Kernel.Hand

end
-- ==== Proof.Bits.K1RunA.lean ====
/-
  Region 1, the case "step 0, not the last step": the accumulator is reset and one product is added. The run of the
  body on whole staging memrefs; the pieces the accumulator ends with are found by running the body.
-/
import proofs.«126321_j46351287059071_2_alg».proof.Proof.Bits.K1Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At step 0 (and not the last step): from the three inputs at their contents, the output block at anything (handed back
    untouched) and the accumulator at anything, the body runs and leaves the accumulator with the pieces LS0 written. -/
noncomputable def kernelRun1_A (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x1024 .f32) (x1 : Vec F S1024x2048 .bf16) (x2 : Vec F S1x2048 .f32) :
    { LS0 : List (View.Piece (Elt F) S1024x2048 .f32) //
      ∀ (xi3 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_kernel i arg2 harg2 arg3 harg3 arg4 harg4 arg5 harg5 arg6 harg6) K } := by
  refine ⟨?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Bits.K1RunB.lean ====
/-
  Region 1, the case "neither step 0 nor the last step": one product is added to the accumulator the step before left.
-/
import proofs.«126321_j46351287059071_2_alg».proof.Proof.Bits.K1Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At a middle step: from the three inputs at their contents, the output block at anything (handed back untouched) and
    the accumulator at xs0, the body runs and leaves the accumulator with the pieces LS0 written. -/
noncomputable def kernelRun1_B (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x1024 .f32) (x1 : Vec F S1024x2048 .bf16) (x2 : Vec F S1x2048 .f32) (xs0 : Vec F S1024x2048 .f32) :
    { LS0 : List (View.Piece (Elt F) S1024x2048 .f32) //
      ∀ (xi3 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_kernel i arg2 harg2 arg3 harg3 arg4 harg4 arg5 harg5 arg6 harg6) K } := by
  refine ⟨?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Bits.K1RunC.lean ====
/-
  Region 1, the case "the last step": one product is added to the accumulator, and accumulator + bias is stored into
  the output block.
-/
import proofs.«126321_j46351287059071_2_alg».proof.Proof.Bits.K1Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At the last step: from the three inputs at their contents, the output block at anything and the accumulator at xs0,
    the body runs and leaves the output block with the pieces L3 written and the accumulator with LS0 written. -/
noncomputable def kernelRun1_C (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x1024 .f32) (x1 : Vec F S1024x2048 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_kernel i arg2 harg2 arg3 harg3 arg4 harg4 arg5 harg5 arg6 harg6) K } := by
  refine ⟨?_, ?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.Bits.K1Body.lean ====
/-
  Region 1: what the accumulator and the output block hold after every grid point, the region's invariant and proof
  data, and the body obligation.
  After point t the accumulator holds what the case of t leaves in it: at step 0 a function of the point's blocks alone,
  at a later step a function of the blocks and of what the point before left. The output block is stored only at the
  last step of a row tile, as a function of the blocks and the accumulator the step before left.
-/
import proofs.«126321_j46351287059071_2_alg».proof.Proof.Bits.K1RunA
import proofs.«126321_j46351287059071_2_alg».proof.Proof.Bits.K1RunB
import proofs.«126321_j46351287059071_2_alg».proof.Proof.Bits.K1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The pieces of case "step 0" tile the accumulator. -/
theorem scover1_A (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i) (x0 : Vec F S1024x1024 .f32) (x1 : Vec F S1024x2048 .bf16) (x2 : Vec F S1x2048 .f32) (y : S1024x2048.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S1024x2048.size (by sl_kernel_rfl) y
/-- What case "step 0" leaves in the accumulator. -/
def sout1_A (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i) (x0 : Vec F S1024x1024 .f32) (x1 : Vec F S1024x2048 .bf16) (x2 : Vec F S1x2048 .f32) : Vec F S1024x2048 .f32 :=
  VS1.read (Elt F) (VS1.writes (Elt F) VS1.junk (kernelRun1_A c i arg2 harg2 arg3 harg3 arg4 harg4 arg5 harg5 arg6 harg6 hc0 hc1 x0 x1 x2).1)

/-- The pieces of a middle step tile the accumulator. -/
theorem scover1_B (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i) (x0 : Vec F S1024x1024 .f32) (x1 : Vec F S1024x2048 .bf16) (x2 : Vec F S1x2048 .f32) (xs0 : Vec F S1024x2048 .f32) (y : S1024x2048.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S1024x2048.size (by sl_kernel_rfl) y
/-- What a middle step leaves in the accumulator. -/
def sout1_B (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i) (x0 : Vec F S1024x1024 .f32) (x1 : Vec F S1024x2048 .bf16) (x2 : Vec F S1x2048 .f32) (xs0 : Vec F S1024x2048 .f32) : Vec F S1024x2048 .f32 :=
  VS1.read (Elt F) (VS1.writes (Elt F) VS1.junk (kernelRun1_B c i arg2 harg2 arg3 harg3 arg4 harg4 arg5 harg5 arg6 harg6 hc0 hc1 x0 x1 x2 xs0).1)

/-- The last step's pieces tile the output block, -/
theorem cover1_C (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x1024 .f32) (x1 : Vec F S1024x2048 .bf16) (x2 : Vec F S1x2048 .f32) (xs0 : Vec F S1024x2048 .f32) (y : S1024x2048.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x2048.size (by sl_kernel_rfl) y
/-- and what it leaves there; -/
def out1_C (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x1024 .f32) (x1 : Vec F S1024x2048 .bf16) (x2 : Vec F S1x2048 .f32) (xs0 : Vec F S1024x2048 .f32) : Vec F S1024x2048 .f32 :=
  VO1.read (Elt F) (VO1.writes (Elt F) VO1.junk (kernelRun1_C c i arg2 harg2 arg3 harg3 arg4 harg4 arg5 harg5 arg6 harg6 hc0 hc1 x0 x1 x2 xs0).1)
/-- likewise for the accumulator. -/
theorem scover1_C (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x1024 .f32) (x1 : Vec F S1024x2048 .bf16) (x2 : Vec F S1x2048 .f32) (xs0 : Vec F S1024x2048 .f32) (y : S1024x2048.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x2048.size (by sl_kernel_rfl) y
def sout1_C (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x1024 .f32) (x1 : Vec F S1024x2048 .bf16) (x2 : Vec F S1x2048 .f32) (xs0 : Vec F S1024x2048 .f32) : Vec F S1024x2048 .f32 :=
  VS1.read (Elt F) (VS1.writes (Elt F) VS1.junk (kernelRun1_C c i arg2 harg2 arg3 harg3 arg4 harg4 arg5 harg5 arg6 harg6 hc0 hc1 x0 x1 x2 xs0).2.1)

/-- Contents nothing consults: the output block's at a point that neither stores it nor writes it back. -/
def idleOut1 : Vec F S1024x2048 .f32 := VO1.read (Elt F) VO1.junk

/-! ## Point by point -/

/-- The output block's staging contents and the accumulator after the body at position n (a pair, in that order). -/
def outsAt1 (c : Dev nD) : (n : ℕ) → n < cfg1.N → Vec F S1024x2048 .f32 × Vec F S1024x2048 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 48 = 0 then
      if h1 : (n + 1) % 48 = 47 then
        False.elim (by omega)
      else
        (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 48 = 47 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 48 = 0) (h1 : ¬t.val % 48 = 47) :
    outsAt1 V c t.val t.isLt = (idleOut1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 48 = 0) (h1 : ¬t.val % 48 = 47) :
    outsAt1 V c t.val t.isLt = (idleOut1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 48 = 0) (h1 : t.val % 48 = 47) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point: every scoped buffer that is no staging buffer of this region at anything. Afterwards: the
    accumulator at what the point before left, the others at anything; throughout, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 c) ∗ (∃ r, prngReg c r)) := by
  cases n with
  | zero => exact absurd rfl hz
  | succ n => rfl

/-! ## The proof data -/

/-- The arrays as the region finds them; after the body each input's buffer at its block, the output's at outsAt1;
    the invariant PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Hand

end
-- ==== Proof.Bits.K1Oblig.lean ====
/-
  Region 1: the body obligation. At each point the closed forms of the two conditions say which case the point is
  in; that case's run applies to the blocks the inputs' buffers hold and to the accumulator the invariant hands over
  (anything at the very first point, what the point before left afterwards), and the invariant takes the accumulator
  back at this point's contents. The output block is handed back untouched away from the last step.
-/
import proofs.«126321_j46351287059071_2_alg».proof.Proof.Bits.K1Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 96 := lt_of_lt_of_eq t.isLt (show cfg1.N = 96 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 48 = 0
  · have h1 : ¬t.val % 48 = 47 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HP, Ho, ⟨%d0, H0⟩, ⟨%d1, H1⟩, ⟨%d2, H2⟩, ⟨%d3, H3⟩⟩
      ihave HP2 := (PhiA1_split c) $$ HP
      icases HP2 with ⟨⟨HS0, Hoth⟩, Hg⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 48 = 47
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 96 := N_1; omega
  rw [show (dat1 V c).Φ (Fin.last cfg1.N) = PhiS1 V c (Fin.last cfg1.N).val (Nat.le_of_lt_succ (Fin.last cfg1.N).isLt) from rfl, PhiS1_pos V c _ _ ht]
  iintro ⟨⟨HS0, Hoth⟩, Hg⟩
  iapply (PhiA1_join c)
  isplitl [HS0 Hoth]
  · isplitl [HS0]; · iexists _; iexact HS0
    iexact Hoth
  iexact Hg

end Cert.Kernel.Hand

end
-- ==== Proof.Bits.KRun.lean ====
/-
  The whole run. @main is five items: two host operations (W rounded to bf16, the bias reshaped to a row), region 0,
  one host operation (the bias reshaped again), region 1, and the thirty host operations of the tail. The contents of
  every unscoped buffer at each boundary are a fold from the launch memory: a host stretch applies its operations, a
  region leaves its arrays at what its write-backs made of them and every other buffer as it found it. One launch of
  the several-regions rule over these boundaries gives: every weakly fair execution terminates, and at the end every
  unscoped buffer holds the last boundary's contents.
-/
import proofs.«126321_j46351287059071_2_alg».proof.Proof.Bits.K0Oblig
import proofs.«126321_j46351287059071_2_alg».proof.Proof.Bits.K1Oblig
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
/-- After the first host stretch: region 0's entry. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch: region 1's entry. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the tail: the end. -/
abbrev W5 : Dev nD → Valuation τ sig (Elt F) := fun c => StableHlo.after hostOps2 (W4 m c)

/-! ## The proof data family and the thread state -/

abbrev admK : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) admK p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as an item over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the end's contents, the generator register at some state. -/
abbrev Tₙ (c : Dev nD) : sProp 𝕄 := iprop(StableHlo.held (c : Thread nD τ) (Pipeline.ucRefs τ sig) (W5 m c) ∗ ∃ r, prngReg c r)

/-! ## The regions as items -/

set_option backward.isDefEq.respectTransparency.types false in
/-- Region 0 over the thread state: entered from every unscoped buffer at W1, left at W2. Its arrays are split out
    of the unscoped buffers and put back at their exit contents; the generator register and the scoped rest go into
    the region's invariant and come back; nothing is owed; the kernel has no semaphore of its own. -/
def reg0 : Pipeline.RegionSeg (pcfgs (F := F)) admK (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    have hback := hout0 (E1 m) c
    unfold Pipeline.ΦA at hback
    rw [Pipeline.ownSems0_none, show (pdats m 0 c).Φ (Fin.last _) = (dat0 (E1 m) c).Φ (Fin.last cfg0.N) from rfl]
    iintro HP
    ihave HP2 := hback $$ HP
    icases HP2 with ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its arrays are split out
    of the unscoped buffers and put back at their exit contents; the generator register and the scoped rest go into
    the region's invariant and come back; nothing is owed; the kernel has no semaphore of its own. -/
def reg1 : Pipeline.RegionSeg (pcfgs (F := F)) admK (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) admK (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    have hback := hout1 (E3 m) c
    unfold Pipeline.ΦA at hback
    rw [Pipeline.ownSems0_none, show (pdats m 1 c).Φ (Fin.last _) = (dat1 (E3 m) c).Φ (Fin.last cfg1.N) from rfl]
    iintro HP
    ihave HP2 := hback $$ HP
    icases HP2 with ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- No host operation allocates a buffer. -/
theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor

abbrev segsK : List (Pipeline.Seg (pcfgs (F := F)) admK (pdats m) () defs₀ 𝒱₀ L lv) :=
  [ .host (hseg hostOps0 hostOps0_sub fresh0 (W0 m)),
    .region (reg0 m),
    .host (hseg hostOps1 hostOps1_sub fresh1 (W2 m)),
    .region (reg1 m),
    .host (hseg hostOps2 hostOps2_sub fresh2 (W4 m)) ]
theorem main_run (c : Dev nD) : main (F := F) c = Pipeline.Seg.run (segsK m) := (main_chain c).trans (by chain_rfl)

set_option backward.isDefEq.respectTransparency.types false in
/-- Every weakly fair execution of @main terminates, nothing faulting, and every final memory holds each unscoped
    buffer at the end's contents W5. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) admK (pdats m) () cellOf_inj emb₁ defs₀ 𝒱₀ L lv m ρ main (segsK m)
    (fun c Q => by rw [main_run m c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.Bits.KFrame.lean ====
/-
  The frame. No host operation writes an argument, and a region either bypasses an argument or stages it through an
  input window, whose array the pipeline leaves as it found it: so the fold of the boundary contents, read at an
  argument's buffer, walks back to the launch memory.
-/
import proofs.«126321_j46351287059071_2_alg».proof.Proof.Bits.KRun
import proofs.«126321_j46351287059071_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window's array leaves region 0 as it entered, -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (E1 m) c).arrAt_in w hw _).trans (A_eq0 (E1 m) c w))
/-- and likewise region 1. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (E3 m) c).arrAt_in w hw _).trans (A_eq1 (E3 m) c w))

/-- main_arg0 reaches the end as launched. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_in m c 0 rfl
    _ = W0 m c (Proc.devRef .tc main_arg0) := StableHlo.after_of_writes_sub hostOps0 _ hostOps0_writes (r := main_arg0) (by decide)
    _ = m ((c : Thread nD τ).loc main_arg0) := rfl

/-- main_arg1 reaches the end as launched. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

/-- main_arg2 reaches the end as launched. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (r := main_arg2) (by decide)
    _ = W3 m c (Proc.devRef .tc main_arg2) := W4_in m c 0 rfl
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

/-- main_arg3 reaches the end as launched. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

/-- main_arg4 reaches the end as launched. -/
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

/-- THE FRAME, at any instance: every weakly fair execution terminates, nothing faulting, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.Kernel.Hand

end
-- ==== Proof.Ideal.K0Shared.lean ====
/-
  Region 0 (the support rows' product, grid 2 × 48): what its case-by-case runs and its proof data share.
  A grid point t is the pair (row tile t / 48, reduction step t % 48). The body resets its accumulator when the
  step is 0, adds one 512×1024 by 1024×2048 product at every step, and stores accumulator + bias into the output
  block when the step is 47; the output block is idle, and not written back, at every other step.
-/
import proofs.«126321_j46351287059071_2_alg».proof.Proof.Gen.KernelIdeal.Launch
import proofs.«126321_j46351287059071_2_alg».proof.Proof.Gen.KernelIdeal.Skeleton
import proofs.«126321_j46351287059071_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, fetched there or not:
    where it is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "the reduction step is 0", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 48 = 0 :=
  (by decide +kernel : ∀ t : Fin grid0.N, cond0_0 (grid0.coords t) ↔ t.val % 48 = 0)
/-- "the reduction step is the last one, 47". -/
abbrev cond0_1 (i : grid0.Coords) : Prop := k0_cond2 i = 1#1
theorem hcond0_1 : ∀ t : Fin cfg0.N, cond0_1 (grid0.coords t) ↔ t.val % 48 = 47 :=
  (by decide +kernel : ∀ t : Fin grid0.N, cond0_1 (grid0.coords t) ↔ t.val % 48 = 47)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last step the output block is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last step it is live. -/
theorem liveAt0_3 : ∀ t : Fin cfg0.N, cond0_1 (grid0.coords t) → cfg0.idle 3 (grid0.coords t) = false := by decide +kernel

/-! ## The staging memrefs and the accumulator -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S512x2048 .f32 := Memref.whole cc0_scratch0
/-- Views through which the output block's and the accumulator's contents are stated. -/
abbrev VO0 : View sig .tc .vmem S512x2048 .f32 := (Memref.whole cc0_stg3_0 : Memref sig .tc .vmem S512x2048 .f32).view
abbrev VS0 : View sig .tc .vmem S512x2048 .f32 := scM0.view

/-- The core's other scoped buffers (the second region's staging buffers and accumulator), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant with the accumulator as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

end Cert.KernelIdeal.Hand

end
-- ==== Proof.Ideal.K0RunA.lean ====
/-
  Region 0, the case "step 0, not the last step": the accumulator is reset and one product is added. The run of the
  body on whole staging memrefs; the pieces the accumulator ends with are found by running the body.
-/
import proofs.«126321_j46351287059071_2_alg».proof.Proof.Ideal.K0Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At step 0 (and not the last step): from the three inputs at their contents, the output block at anything (handed back
    untouched) and the accumulator at anything, the body runs and leaves the accumulator with the pieces LS0 written. -/
noncomputable def kernelRun0_A (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i)
    (x0 : Vec F S512x1024 .f32) (x1 : Vec F S1024x2048 .bf16) (x2 : Vec F S1x2048 .f32) :
    { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_kernel i arg2 harg2 arg3 harg3 arg4 harg4 arg5 harg5 arg6 harg6) K } := by
  refine ⟨?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.Ideal.K0RunB.lean ====
/-
  Region 0, the case "neither step 0 nor the last step": one product is added to the accumulator the step before left.
-/
import proofs.«126321_j46351287059071_2_alg».proof.Proof.Ideal.K0Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At a middle step: from the three inputs at their contents, the output block at anything (handed back untouched) and
    the accumulator at xs0, the body runs and leaves the accumulator with the pieces LS0 written. -/
noncomputable def kernelRun0_B (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i)
    (x0 : Vec F S512x1024 .f32) (x1 : Vec F S1024x2048 .bf16) (x2 : Vec F S1x2048 .f32) (xs0 : Vec F S512x2048 .f32) :
    { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_kernel i arg2 harg2 arg3 harg3 arg4 harg4 arg5 harg5 arg6 harg6) K } := by
  refine ⟨?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.Ideal.K0RunC.lean ====
/-
  Region 0, the case "the last step": one product is added to the accumulator, and accumulator + bias is stored into
  the output block.
-/
import proofs.«126321_j46351287059071_2_alg».proof.Proof.Ideal.K0Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At the last step: from the three inputs at their contents, the output block at anything and the accumulator at xs0,
    the body runs and leaves the output block with the pieces L3 written and the accumulator with LS0 written. -/
noncomputable def kernelRun0_C (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x1024 .f32) (x1 : Vec F S1024x2048 .bf16) (x2 : Vec F S1x2048 .f32) (xs0 : Vec F S512x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_kernel i arg2 harg2 arg3 harg3 arg4 harg4 arg5 harg5 arg6 harg6) K } := by
  refine ⟨?_, ?_, fun E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.Ideal.K0Body.lean ====
/-
  Region 0: what the accumulator and the output block hold after every grid point, the region's invariant and proof
  data, and the body obligation.
  After point t the accumulator holds what the case of t leaves in it: at step 0 a function of the point's blocks alone,
  at a later step a function of the blocks and of what the point before left. The output block is stored only at the
  last step of a row tile, as a function of the blocks and the accumulator the step before left.
-/
import proofs.«126321_j46351287059071_2_alg».proof.Proof.Ideal.K0RunA
import proofs.«126321_j46351287059071_2_alg».proof.Proof.Ideal.K0RunB
import proofs.«126321_j46351287059071_2_alg».proof.Proof.Ideal.K0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The pieces of case "step 0" tile the accumulator. -/
theorem scover0_A (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i) (x0 : Vec F S512x1024 .f32) (x1 : Vec F S1024x2048 .bf16) (x2 : Vec F S1x2048 .f32) (y : S512x2048.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S512x2048.size (by sl_kernel_rfl) y
/-- What case "step 0" leaves in the accumulator. -/
def sout0_A (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i) (x0 : Vec F S512x1024 .f32) (x1 : Vec F S1024x2048 .bf16) (x2 : Vec F S1x2048 .f32) : Vec F S512x2048 .f32 :=
  VS0.read (Elt F) (VS0.writes (Elt F) VS0.junk (kernelRun0_A c i arg2 harg2 arg3 harg3 arg4 harg4 arg5 harg5 arg6 harg6 hc0 hc1 x0 x1 x2).1)

/-- The pieces of a middle step tile the accumulator. -/
theorem scover0_B (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i) (x0 : Vec F S512x1024 .f32) (x1 : Vec F S1024x2048 .bf16) (x2 : Vec F S1x2048 .f32) (xs0 : Vec F S512x2048 .f32) (y : S512x2048.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S512x2048.size (by sl_kernel_rfl) y
/-- What a middle step leaves in the accumulator. -/
def sout0_B (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i) (x0 : Vec F S512x1024 .f32) (x1 : Vec F S1024x2048 .bf16) (x2 : Vec F S1x2048 .f32) (xs0 : Vec F S512x2048 .f32) : Vec F S512x2048 .f32 :=
  VS0.read (Elt F) (VS0.writes (Elt F) VS0.junk (kernelRun0_B c i arg2 harg2 arg3 harg3 arg4 harg4 arg5 harg5 arg6 harg6 hc0 hc1 x0 x1 x2 xs0).1)

/-- The last step's pieces tile the output block, -/
theorem cover0_C (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec F S512x1024 .f32) (x1 : Vec F S1024x2048 .bf16) (x2 : Vec F S1x2048 .f32) (xs0 : Vec F S512x2048 .f32) (y : S512x2048.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S512x2048.size (by sl_kernel_rfl) y
/-- and what it leaves there; -/
def out0_C (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec F S512x1024 .f32) (x1 : Vec F S1024x2048 .bf16) (x2 : Vec F S1x2048 .f32) (xs0 : Vec F S512x2048 .f32) : Vec F S512x2048 .f32 :=
  VO0.read (Elt F) (VO0.writes (Elt F) VO0.junk (kernelRun0_C c i arg2 harg2 arg3 harg3 arg4 harg4 arg5 harg5 arg6 harg6 hc0 hc1 x0 x1 x2 xs0).1)
/-- likewise for the accumulator. -/
theorem scover0_C (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec F S512x1024 .f32) (x1 : Vec F S1024x2048 .bf16) (x2 : Vec F S1x2048 .f32) (xs0 : Vec F S512x2048 .f32) (y : S512x2048.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S512x2048.size (by sl_kernel_rfl) y
def sout0_C (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec F S512x1024 .f32) (x1 : Vec F S1024x2048 .bf16) (x2 : Vec F S1x2048 .f32) (xs0 : Vec F S512x2048 .f32) : Vec F S512x2048 .f32 :=
  VS0.read (Elt F) (VS0.writes (Elt F) VS0.junk (kernelRun0_C c i arg2 harg2 arg3 harg3 arg4 harg4 arg5 harg5 arg6 harg6 hc0 hc1 x0 x1 x2 xs0).2.1)

/-- Contents nothing consults: the output block's at a point that neither stores it nor writes it back. -/
def idleOut0 : Vec F S512x2048 .f32 := VO0.read (Elt F) VO0.junk

/-! ## Point by point -/

/-- The output block's staging contents and the accumulator after the body at position n (a pair, in that order). -/
def outsAt0 (c : Dev nD) : (n : ℕ) → n < cfg0.N → Vec F S512x2048 .f32 × Vec F S512x2048 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 48 = 0 then
      if h1 : (n + 1) % 48 = 47 then
        False.elim (by omega)
      else
        (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 48 = 47 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 48 = 0) (h1 : ¬t.val % 48 = 47) :
    outsAt0 V c t.val t.isLt = (idleOut0, sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 48 = 0) (h1 : ¬t.val % 48 = 47) :
    outsAt0 V c t.val t.isLt = (idleOut0, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 48 = 0) (h1 : t.val % 48 = 47) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point: every scoped buffer that is no staging buffer of this region at anything. Afterwards: the
    accumulator at what the point before left, the others at anything; throughout, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

/-- The arrays as the region finds them; after the body each input's buffer at its block, the output's at outsAt0;
    the invariant PhiS0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Hand

end
-- ==== Proof.Ideal.K0Oblig.lean ====
/-
  Region 0: the body obligation. At each point the closed forms of the two conditions say which case the point is
  in; that case's run applies to the blocks the inputs' buffers hold and to the accumulator the invariant hands over
  (anything at the very first point, what the point before left afterwards), and the invariant takes the accumulator
  back at this point's contents. The output block is handed back untouched away from the last step.
-/
import proofs.«126321_j46351287059071_2_alg».proof.Proof.Ideal.K0Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The class invariant hands over the accumulator as a memref owned at some contents beside the other scoped buffers, -/
theorem PhiA0_split (c : Dev nD) :
    (Pipeline.ΦA spec0 c : sProp 𝕄) ⊢ iprop(iprop((∃ d, owns (c : Thread nD τ) scM0 fullShare d) ∗ others0 c) ∗ (∃ r, prngReg c r)) := by
  rw [PhiA0_eq]
/-- and is made of them again. -/
theorem PhiA0_join (c : Dev nD) :
    (iprop(iprop((∃ d, owns (c : Thread nD τ) scM0 fullShare d) ∗ others0 c) ∗ (∃ r, prngReg c r)) : sProp 𝕄) ⊢ Pipeline.ΦA spec0 c := by
  rw [PhiA0_eq]

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 96 := lt_of_lt_of_eq t.isLt (show cfg0.N = 96 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 48 = 0
  · have h1 : ¬t.val % 48 = 47 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A; (try dsimp only)
    by_cases hz : t.val = 0
    · rw [PhiS0_castSucc V c t, PhiS0_zero V c _ _ hz]
      iintro ⟨HP, Ho, ⟨%d0, H0⟩, ⟨%d1, H1⟩, ⟨%d2, H2⟩, ⟨%d3, H3⟩⟩
      ihave HP2 := (PhiA0_split c) $$ HP
      icases HP2 with ⟨⟨HS0, Hoth⟩, Hg⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 48 = 47
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 96 := N_0; omega
  rw [show (dat0 V c).Φ (Fin.last cfg0.N) = PhiS0 V c (Fin.last cfg0.N).val (Nat.le_of_lt_succ (Fin.last cfg0.N).isLt) from rfl, PhiS0_pos V c _ _ ht]
  iintro ⟨⟨HS0, Hoth⟩, Hg⟩
  iapply (PhiA0_join c)
  isplitl [HS0 Hoth]
  · isplitl [HS0]; · iexists _; iexact HS0
    iexact Hoth
  iexact Hg

end Cert.KernelIdeal.Hand

end
-- ==== Proof.Ideal.K1Shared.lean ====
/-
  Region 1 (the query rows' product, grid 2 × 48): what its case-by-case runs and its proof data share.
  A grid point t is the pair (row tile t / 48, reduction step t % 48). The body resets its accumulator when the
  step is 0, adds one 1024×1024 by 1024×2048 product at every step, and stores accumulator + bias into the output
  block when the step is 47; the output block is idle, and not written back, at every other step.
-/
import proofs.«126321_j46351287059071_2_alg».proof.Proof.Gen.KernelIdeal.Launch
import proofs.«126321_j46351287059071_2_alg».proof.Proof.Gen.KernelIdeal.Skeleton
import proofs.«126321_j46351287059071_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, fetched there or not:
    where it is not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "the reduction step is 0", as the body computes it from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 48 = 0 :=
  (by decide +kernel : ∀ t : Fin grid1.N, cond1_0 (grid1.coords t) ↔ t.val % 48 = 0)
/-- "the reduction step is the last one, 47". -/
abbrev cond1_1 (i : grid1.Coords) : Prop := k1_cond2 i = 1#1
theorem hcond1_1 : ∀ t : Fin cfg1.N, cond1_1 (grid1.coords t) ↔ t.val % 48 = 47 :=
  (by decide +kernel : ∀ t : Fin grid1.N, cond1_1 (grid1.coords t) ↔ t.val % 48 = 47)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last step the output block is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last step it is live. -/
theorem liveAt1_3 : ∀ t : Fin cfg1.N, cond1_1 (grid1.coords t) → cfg1.idle 3 (grid1.coords t) = false := by decide +kernel

/-! ## The staging memrefs and the accumulator -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x2048 .f32 := Memref.whole cc1_scratch0
/-- Views through which the output block's and the accumulator's contents are stated. -/
abbrev VO1 : View sig .tc .vmem S1024x2048 .f32 := (Memref.whole cc1_stg3_0 : Memref sig .tc .vmem S1024x2048 .f32).view
abbrev VS1 : View sig .tc .vmem S1024x2048 .f32 := scM1.view

/-- The core's other scoped buffers (the first region's staging buffers and accumulator), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant hands over the accumulator as a memref owned at some contents beside the other scoped buffers, -/
theorem PhiA1_split (c : Dev nD) :
    (Pipeline.ΦA spec1 c : sProp 𝕄) ⊢ iprop(iprop((∃ d, owns (c : Thread nD τ) scM1 fullShare d) ∗ others1 c) ∗ (∃ r, prngReg c r)) := by
  unfold Pipeline.ΦA others1; rw [scopedRest1_eq]; simp only [scM1, owns_whole]
  iintro ⟨⟨H0, H1, H2, H3, H4, H5, H6, H7, HS⟩, Hg⟩
  isplitl [H0 H1 H2 H3 H4 H5 H6 H7 HS]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg
/-- and is made of them again. -/
theorem PhiA1_join (c : Dev nD) :
    (iprop(iprop((∃ d, owns (c : Thread nD τ) scM1 fullShare d) ∗ others1 c) ∗ (∃ r, prngReg c r)) : sProp 𝕄) ⊢ Pipeline.ΦA spec1 c := by
  unfold Pipeline.ΦA others1; rw [scopedRest1_eq]; simp only [scM1, owns_whole]
  iintro ⟨⟨HS, H0, H1, H2, H3, H4, H5, H6, H7⟩, Hg⟩
  isplitl [H0 H1 H2 H3 H4 H5 H6 H7 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.KernelIdeal.Hand

end
-- ==== Proof.Ideal.K1RunA.lean ====
/-
  Region 1, the case "step 0, not the last step": the accumulator is reset and one product is added. The run of the
  body on whole staging memrefs; the pieces the accumulator ends with are found by running the body.
-/
import proofs.«126321_j46351287059071_2_alg».proof.Proof.Ideal.K1Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At step 0 (and not the last step): from the three inputs at their contents, the output block at anything (handed back
    untouched) and the accumulator at anything, the body runs and leaves the accumulator with the pieces LS0 written. -/
noncomputable def kernelRun1_A (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x1024 .f32) (x1 : Vec F S1024x2048 .bf16) (x2 : Vec F S1x2048 .f32) :
    { LS0 : List (View.Piece (Elt F) S1024x2048 .f32) //
      ∀ (xi3 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_kernel i arg2 harg2 arg3 harg3 arg4 harg4 arg5 harg5 arg6 harg6) K } := by
  refine ⟨?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.Ideal.K1RunB.lean ====
/-
  Region 1, the case "neither step 0 nor the last step": one product is added to the accumulator the step before left.
-/
import proofs.«126321_j46351287059071_2_alg».proof.Proof.Ideal.K1Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At a middle step: from the three inputs at their contents, the output block at anything (handed back untouched) and
    the accumulator at xs0, the body runs and leaves the accumulator with the pieces LS0 written. -/
noncomputable def kernelRun1_B (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x1024 .f32) (x1 : Vec F S1024x2048 .bf16) (x2 : Vec F S1x2048 .f32) (xs0 : Vec F S1024x2048 .f32) :
    { LS0 : List (View.Piece (Elt F) S1024x2048 .f32) //
      ∀ (xi3 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_kernel i arg2 harg2 arg3 harg3 arg4 harg4 arg5 harg5 arg6 harg6) K } := by
  refine ⟨?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.Ideal.K1RunC.lean ====
/-
  Region 1, the case "the last step": one product is added to the accumulator, and accumulator + bias is stored into
  the output block.
-/
import proofs.«126321_j46351287059071_2_alg».proof.Proof.Ideal.K1Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At the last step: from the three inputs at their contents, the output block at anything and the accumulator at xs0,
    the body runs and leaves the output block with the pieces L3 written and the accumulator with LS0 written. -/
noncomputable def kernelRun1_C (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x1024 .f32) (x1 : Vec F S1024x2048 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_kernel i arg2 harg2 arg3 harg3 arg4 harg4 arg5 harg5 arg6 harg6) K } := by
  refine ⟨?_, ?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.Ideal.K1Body.lean ====
/-
  Region 1: what the accumulator and the output block hold after every grid point, the region's invariant and proof
  data, and the body obligation.
  After point t the accumulator holds what the case of t leaves in it: at step 0 a function of the point's blocks alone,
  at a later step a function of the blocks and of what the point before left. The output block is stored only at the
  last step of a row tile, as a function of the blocks and the accumulator the step before left.
-/
import proofs.«126321_j46351287059071_2_alg».proof.Proof.Ideal.K1RunA
import proofs.«126321_j46351287059071_2_alg».proof.Proof.Ideal.K1RunB
import proofs.«126321_j46351287059071_2_alg».proof.Proof.Ideal.K1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The pieces of case "step 0" tile the accumulator. -/
theorem scover1_A (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i) (x0 : Vec F S1024x1024 .f32) (x1 : Vec F S1024x2048 .bf16) (x2 : Vec F S1x2048 .f32) (y : S1024x2048.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S1024x2048.size (by sl_kernel_rfl) y
/-- What case "step 0" leaves in the accumulator. -/
def sout1_A (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i) (x0 : Vec F S1024x1024 .f32) (x1 : Vec F S1024x2048 .bf16) (x2 : Vec F S1x2048 .f32) : Vec F S1024x2048 .f32 :=
  VS1.read (Elt F) (VS1.writes (Elt F) VS1.junk (kernelRun1_A c i arg2 harg2 arg3 harg3 arg4 harg4 arg5 harg5 arg6 harg6 hc0 hc1 x0 x1 x2).1)

/-- The pieces of a middle step tile the accumulator. -/
theorem scover1_B (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i) (x0 : Vec F S1024x1024 .f32) (x1 : Vec F S1024x2048 .bf16) (x2 : Vec F S1x2048 .f32) (xs0 : Vec F S1024x2048 .f32) (y : S1024x2048.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S1024x2048.size (by sl_kernel_rfl) y
/-- What a middle step leaves in the accumulator. -/
def sout1_B (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i) (x0 : Vec F S1024x1024 .f32) (x1 : Vec F S1024x2048 .bf16) (x2 : Vec F S1x2048 .f32) (xs0 : Vec F S1024x2048 .f32) : Vec F S1024x2048 .f32 :=
  VS1.read (Elt F) (VS1.writes (Elt F) VS1.junk (kernelRun1_B c i arg2 harg2 arg3 harg3 arg4 harg4 arg5 harg5 arg6 harg6 hc0 hc1 x0 x1 x2 xs0).1)

/-- The last step's pieces tile the output block, -/
theorem cover1_C (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x1024 .f32) (x1 : Vec F S1024x2048 .bf16) (x2 : Vec F S1x2048 .f32) (xs0 : Vec F S1024x2048 .f32) (y : S1024x2048.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x2048.size (by sl_kernel_rfl) y
/-- and what it leaves there; -/
def out1_C (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x1024 .f32) (x1 : Vec F S1024x2048 .bf16) (x2 : Vec F S1x2048 .f32) (xs0 : Vec F S1024x2048 .f32) : Vec F S1024x2048 .f32 :=
  VO1.read (Elt F) (VO1.writes (Elt F) VO1.junk (kernelRun1_C c i arg2 harg2 arg3 harg3 arg4 harg4 arg5 harg5 arg6 harg6 hc0 hc1 x0 x1 x2 xs0).1)
/-- likewise for the accumulator. -/
theorem scover1_C (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x1024 .f32) (x1 : Vec F S1024x2048 .bf16) (x2 : Vec F S1x2048 .f32) (xs0 : Vec F S1024x2048 .f32) (y : S1024x2048.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x2048.size (by sl_kernel_rfl) y
def sout1_C (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x1024 .f32) (x1 : Vec F S1024x2048 .bf16) (x2 : Vec F S1x2048 .f32) (xs0 : Vec F S1024x2048 .f32) : Vec F S1024x2048 .f32 :=
  VS1.read (Elt F) (VS1.writes (Elt F) VS1.junk (kernelRun1_C c i arg2 harg2 arg3 harg3 arg4 harg4 arg5 harg5 arg6 harg6 hc0 hc1 x0 x1 x2 xs0).2.1)

/-- Contents nothing consults: the output block's at a point that neither stores it nor writes it back. -/
def idleOut1 : Vec F S1024x2048 .f32 := VO1.read (Elt F) VO1.junk

/-! ## Point by point -/

/-- The output block's staging contents and the accumulator after the body at position n (a pair, in that order). -/
def outsAt1 (c : Dev nD) : (n : ℕ) → n < cfg1.N → Vec F S1024x2048 .f32 × Vec F S1024x2048 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 48 = 0 then
      if h1 : (n + 1) % 48 = 47 then
        False.elim (by omega)
      else
        (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 48 = 47 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 48 = 0) (h1 : ¬t.val % 48 = 47) :
    outsAt1 V c t.val t.isLt = (idleOut1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 48 = 0) (h1 : ¬t.val % 48 = 47) :
    outsAt1 V c t.val t.isLt = (idleOut1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 48 = 0) (h1 : t.val % 48 = 47) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point: every scoped buffer that is no staging buffer of this region at anything. Afterwards: the
    accumulator at what the point before left, the others at anything; throughout, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 c) ∗ (∃ r, prngReg c r)) := by
  cases n with
  | zero => exact absurd rfl hz
  | succ n => rfl

/-! ## The proof data -/

/-- The arrays as the region finds them; after the body each input's buffer at its block, the output's at outsAt1;
    the invariant PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Hand

end
-- ==== Proof.Ideal.K1Oblig.lean ====
/-
  Region 1: the body obligation. At each point the closed forms of the two conditions say which case the point is
  in; that case's run applies to the blocks the inputs' buffers hold and to the accumulator the invariant hands over
  (anything at the very first point, what the point before left afterwards), and the invariant takes the accumulator
  back at this point's contents. The output block is handed back untouched away from the last step.
-/
import proofs.«126321_j46351287059071_2_alg».proof.Proof.Ideal.K1Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 96 := lt_of_lt_of_eq t.isLt (show cfg1.N = 96 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 48 = 0
  · have h1 : ¬t.val % 48 = 47 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HP, Ho, ⟨%d0, H0⟩, ⟨%d1, H1⟩, ⟨%d2, H2⟩, ⟨%d3, H3⟩⟩
      ihave HP2 := (PhiA1_split c) $$ HP
      icases HP2 with ⟨⟨HS0, Hoth⟩, Hg⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 48 = 47
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 96 := N_1; omega
  rw [show (dat1 V c).Φ (Fin.last cfg1.N) = PhiS1 V c (Fin.last cfg1.N).val (Nat.le_of_lt_succ (Fin.last cfg1.N).isLt) from rfl, PhiS1_pos V c _ _ ht]
  iintro ⟨⟨HS0, Hoth⟩, Hg⟩
  iapply (PhiA1_join c)
  isplitl [HS0 Hoth]
  · isplitl [HS0]; · iexists _; iexact HS0
    iexact Hoth
  iexact Hg

end Cert.KernelIdeal.Hand

end
-- ==== Proof.Ideal.KRun.lean ====
/-
  The whole run. @main is five items: two host operations (W rounded to bf16, the bias reshaped to a row), region 0,
  one host operation (the bias reshaped again), region 1, and the thirty host operations of the tail. The contents of
  every unscoped buffer at each boundary are a fold from the launch memory: a host stretch applies its operations, a
  region leaves its arrays at what its write-backs made of them and every other buffer as it found it. One launch of
  the several-regions rule over these boundaries gives: every weakly fair execution terminates, and at the end every
  unscoped buffer holds the last boundary's contents.
-/
import proofs.«126321_j46351287059071_2_alg».proof.Proof.Ideal.K0Oblig
import proofs.«126321_j46351287059071_2_alg».proof.Proof.Ideal.K1Oblig
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
/-- After the first host stretch: region 0's entry. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch: region 1's entry. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the tail: the end. -/
abbrev W5 : Dev nD → Valuation τ sig (Elt F) := fun c => StableHlo.after hostOps2 (W4 m c)

/-! ## The proof data family and the thread state -/

abbrev admK : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) admK p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as an item over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the end's contents, the generator register at some state. -/
abbrev Tₙ (c : Dev nD) : sProp 𝕄 := iprop(StableHlo.held (c : Thread nD τ) (Pipeline.ucRefs τ sig) (W5 m c) ∗ ∃ r, prngReg c r)

/-! ## The regions as items -/

set_option backward.isDefEq.respectTransparency.types false in
/-- Region 0 over the thread state: entered from every unscoped buffer at W1, left at W2. Its arrays are split out
    of the unscoped buffers and put back at their exit contents; the generator register and the scoped rest go into
    the region's invariant and come back; nothing is owed; the kernel has no semaphore of its own. -/
def reg0 : Pipeline.RegionSeg (pcfgs (F := F)) admK (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    have hback := hout0 (E1 m) c
    unfold Pipeline.ΦA at hback
    rw [Pipeline.ownSems0_none, show (pdats m 0 c).Φ (Fin.last _) = (dat0 (E1 m) c).Φ (Fin.last cfg0.N) from rfl]
    iintro HP
    ihave HP2 := hback $$ HP
    icases HP2 with ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its arrays are split out
    of the unscoped buffers and put back at their exit contents; the generator register and the scoped rest go into
    the region's invariant and come back; nothing is owed; the kernel has no semaphore of its own. -/
def reg1 : Pipeline.RegionSeg (pcfgs (F := F)) admK (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) admK (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    have hback := hout1 (E3 m) c
    unfold Pipeline.ΦA at hback
    rw [Pipeline.ownSems0_none, show (pdats m 1 c).Φ (Fin.last _) = (dat1 (E3 m) c).Φ (Fin.last cfg1.N) from rfl]
    iintro HP
    ihave HP2 := hback $$ HP
    icases HP2 with ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- No host operation allocates a buffer. -/
theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor

abbrev segsK : List (Pipeline.Seg (pcfgs (F := F)) admK (pdats m) () defs₀ 𝒱₀ L lv) :=
  [ .host (hseg hostOps0 hostOps0_sub fresh0 (W0 m)),
    .region (reg0 m),
    .host (hseg hostOps1 hostOps1_sub fresh1 (W2 m)),
    .region (reg1 m),
    .host (hseg hostOps2 hostOps2_sub fresh2 (W4 m)) ]
theorem main_run (c : Dev nD) : main (F := F) c = Pipeline.Seg.run (segsK m) := (main_chain c).trans (by chain_rfl)

set_option backward.isDefEq.respectTransparency.types false in
/-- Every weakly fair execution of @main terminates, nothing faulting, and every final memory holds each unscoped
    buffer at the end's contents W5. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) admK (pdats m) () cellOf_inj emb₁ defs₀ 𝒱₀ L lv m ρ main (segsK m)
    (fun c Q => by rw [main_run m c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.Ideal.KFrame.lean ====
/-
  The frame. No host operation writes an argument, and a region either bypasses an argument or stages it through an
  input window, whose array the pipeline leaves as it found it: so the fold of the boundary contents, read at an
  argument's buffer, walks back to the launch memory.
-/
import proofs.«126321_j46351287059071_2_alg».proof.Proof.Ideal.KRun
import proofs.«126321_j46351287059071_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window's array leaves region 0 as it entered, -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (E1 m) c).arrAt_in w hw _).trans (A_eq0 (E1 m) c w))
/-- and likewise region 1. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (E3 m) c).arrAt_in w hw _).trans (A_eq1 (E3 m) c w))

/-- main_arg0 reaches the end as launched. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_in m c 0 rfl
    _ = W0 m c (Proc.devRef .tc main_arg0) := StableHlo.after_of_writes_sub hostOps0 _ hostOps0_writes (r := main_arg0) (by decide)
    _ = m ((c : Thread nD τ).loc main_arg0) := rfl

/-- main_arg1 reaches the end as launched. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

/-- main_arg2 reaches the end as launched. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (r := main_arg2) (by decide)
    _ = W3 m c (Proc.devRef .tc main_arg2) := W4_in m c 0 rfl
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

/-- main_arg3 reaches the end as launched. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

/-- main_arg4 reaches the end as launched. -/
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

/-- THE FRAME, at any instance: every weakly fair execution terminates, nothing faulting, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Hand

end
-- ==== Proof.Ideal.Payloads.lean ====
import proofs.«126321_j46351287059071_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx
open scoped BigOperators

/-! ### Finite sums: blocks of the contraction, and an accumulator's partial sums -/

/-- A sum over 49152 positions is the sum over 48 blocks of the sums over the 1024 positions of each block. -/
theorem blocked_sum {M : Type*} [AddCommMonoid M] (f : Fin 49152 → M) :
    (∑ k : Fin 49152, f k) = ∑ kb : Fin 48, ∑ kk : Fin 1024, f ⟨kb.val * 1024 + kk.val, by omega⟩ := by
  refine (Equiv.sum_comp (finProdFinEquiv : Fin 48 × Fin 1024 ≃ Fin 49152) f).symm.trans ?_
  rw [Fintype.sum_prod_type]
  refine Finset.sum_congr rfl fun kb _ => Finset.sum_congr rfl fun kk _ => congrArg f (Fin.ext ?_)
  show kk.val + 1024 * kb.val = kb.val * 1024 + kk.val
  omega

/-- The sum of the first `n + 1` of 48 terms. -/
def psum {M : Type*} [AddCommMonoid M] (g : Fin 48 → M) (n : ℕ) : M :=
  ∑ kb ∈ Finset.univ.filter (fun kb : Fin 48 => kb.val ≤ n), g kb

theorem psum_zero {M : Type*} [AddCommMonoid M] (g : Fin 48 → M) : psum g 0 = 0 + g 0 := by
  unfold psum
  have h : (Finset.univ.filter fun kb : Fin 48 => kb.val ≤ 0) = {(0 : Fin 48)} := by
    ext kb
    simp only [Finset.mem_filter, Finset.mem_univ, true_and, Finset.mem_singleton, Fin.ext_iff, Fin.val_zero]
    omega
  rw [h, Finset.sum_singleton, zero_add]

theorem psum_succ {M : Type*} [AddCommMonoid M] (g : Fin 48 → M) (n : ℕ) (hn : n + 1 < 48) :
    psum g (n + 1) = psum g n + g ⟨n + 1, hn⟩ := by
  unfold psum
  have h : (Finset.univ.filter fun kb : Fin 48 => kb.val ≤ n + 1)
      = insert (⟨n + 1, hn⟩ : Fin 48) (Finset.univ.filter fun kb : Fin 48 => kb.val ≤ n) := by
    ext kb
    simp only [Finset.mem_filter, Finset.mem_univ, true_and, Finset.mem_insert, Fin.ext_iff]
    omega
  have hnot : (⟨n + 1, hn⟩ : Fin 48) ∉ Finset.univ.filter fun kb : Fin 48 => kb.val ≤ n := by
    simp only [Finset.mem_filter, Finset.mem_univ, true_and]
    omega
  rw [h, Finset.sum_insert hnot, add_comm]

theorem psum_last {M : Type*} [AddCommMonoid M] (g : Fin 48 → M) : psum g 47 = ∑ kb : Fin 48, g kb := by
  unfold psum
  rw [Finset.filter_true_of_mem fun kb _ => by have := kb.isLt; omega]

/-- An accumulator that starts at `0 + g 0` and adds `g (k + 1)` at step `k + 1` holds the sum of the first
    `n + 1` terms after step `n`. -/
theorem acc_steps {M : Type*} [AddCommMonoid M] (g : Fin 48 → M) (s : ℕ → M) (h0 : s 0 = 0 + g 0)
    (hs : ∀ (k : ℕ) (hk : k + 1 < 48), s (k + 1) = s k + g ⟨k + 1, hk⟩) (n : ℕ) (hn : n < 48) :
    s n = psum g n := by
  induction n with
  | zero => rw [h0, psum_zero]
  | succ k ih => rw [hs k hn, ih (by omega), psum_succ g k hn]

/-- … hence the whole sum after the last step. -/
theorem acc_final {M : Type*} [AddCommMonoid M] (g : Fin 48 → M) (s : ℕ → M) (h0 : s 0 = 0 + g 0)
    (hs : ∀ (k : ℕ) (hk : k + 1 < 48), s (k + 1) = s k + g ⟨k + 1, hk⟩) :
    s 47 = ∑ kb : Fin 48, g kb :=
  (acc_steps g s h0 hs 47 (by omega)).trans (psum_last g)

/-! ### The 512-row block -/

/-- The zero splat reads `0` everywhere. -/
theorem pay1_0 (j : S512x2048.Idx) : k0_pay1 (F := Ideal) j = 0 := by
  unfold k0_pay1
  rw [shapeCast_self]
  exact Ideal.ofBits_zero_f32

theorem lhs0_0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem rhs0_1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- A product of a 512×1024 by a 1024×2048 operand into a zero accumulator, read at (r, q): the sum over the
    contraction position of the row-r entries times the column-q entries. -/
theorem mm_0 (lhs : FVec Ideal S512x1024 .bf16) (rhs : FVec Ideal S1024x2048 .bf16) (r : Fin 512) (q : Fin 2048) :
    FloatOps.matmul dot_S512x1024_S1024x2048_S512x2048_1_0_0_1_n_n none lhs rhs (constant S512x2048 .f32 0x00000000#32) (ix2 r q)
      = ∑ kk : Fin 1024, lhs (ix2 r kk) * rhs (ix2 kk q) := by
  rw [Ideal.matmul_constant_zero_apply, ← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 r q) ((contrEquiv1 dot_S512x1024_S1024x2048_S512x2048_1_0_0_1_n_n 1024 rfl rfl).symm k) = ix2 r k := funext fun a => Fin.ext (by
    match a with
    | ⟨0, _⟩ => exact lhs0_0 _ _
    | ⟨1, _⟩ => exact (dot_S512x1024_S1024x2048_S512x2048_1_0_0_1_n_n.lhsIdx_val_of_single rfl _ _).trans hk)
  have er : dot_S512x1024_S1024x2048_S512x2048_1_0_0_1_n_n.rhsIdx (ix2 r q) ((contrEquiv1 dot_S512x1024_S1024x2048_S512x2048_1_0_0_1_n_n 1024 rfl rfl).symm k) = ix2 k q := funext fun a => Fin.ext (by
    match a with
    | ⟨0, _⟩ => exact (dot_S512x1024_S1024x2048_S512x2048_1_0_0_1_n_n.rhsIdx_val_of_single rfl _ _).trans hk
    | ⟨1, _⟩ => exact rhs0_1 _ _)
  rw [el, er]

/-- One accumulation step: the accumulator plus the block's row-by-column sum of products (the narrowing of the
    left operand is the identity on extended reals). -/
theorem pay2_0 (x : Vec Ideal S512x1024 .f32) (a : Vec Ideal S512x2048 .f32) (w : Vec Ideal S1024x2048 .bf16) (r : Fin 512) (q : Fin 2048) :
    k0_pay2 (F := Ideal) x a w (ix2 r q) = a (ix2 r q) + ∑ kk : Fin 1024, x (ix2 r kk) * w (ix2 kk q) := by
  unfold k0_pay2
  rw [shapeCast_self, shapeCast_self]
  show a (ix2 r q) + FloatOps.matmul (F := Ideal) dot_S512x1024_S1024x2048_S512x2048_1_0_0_1_n_n none (truncf (F := Ideal) (φ := .f32) .bf16 x bitsLt_bf16_f32) w (constant (F := Ideal) S512x2048 .f32 0x00000000#32) (ix2 r q) = _
  rw [mm_0]
  rfl

/-- The last step adds the bias row to every row of the accumulator. -/
theorem pay3_0 (a : Vec Ideal S512x2048 .f32) (b : Vec Ideal S1x2048 .f32) (r : Fin 512) (q : Fin 2048) :
    k0_pay3 (F := Ideal) a b (ix2 r q) = a (ix2 r q) + b (ix2 0 q) := by
  unfold k0_pay3
  rw [shapeCast_self]
  show a (ix2 r q) + broadcastTo S512x2048 b broadcasts_S1x2048_S512x2048 (ix2 r q) = _
  rw [broadcastTo_apply b broadcasts_S1x2048_S512x2048 (ix2 r q) (ix2 0 q) (fun a => match a with
    | ⟨0, _⟩ => by show 0 = if (1 : Nat) = 1 then 0 else _; rw [if_pos rfl]
    | ⟨1, _⟩ => by show q.val = if (2048 : Nat) = 1 then 0 else q.val; rw [if_neg (by decide)])]

/-! ### The 1024-row block -/

/-- The zero splat reads `0` everywhere. -/
theorem pay1_1 (j : S1024x2048.Idx) : k1_pay1 (F := Ideal) j = 0 := by
  unfold k1_pay1
  rw [shapeCast_self]
  exact Ideal.ofBits_zero_f32

theorem lhs1_0 (i : S1024x2048.Idx) (q : dot_S1024x1024_S1024x2048_S1024x2048_1_0_0_1_n_n.contr.Idx) :
    (dot_S1024x1024_S1024x2048_S1024x2048_1_0_0_1_n_n.lhsIdx i q 0).val = (i 0).val := by
  unfold DotDims.lhsIdx
  rw [dif_neg (show ¬(0 : Fin S1024x1024.rank) ∈ dot_S1024x1024_S1024x2048_S1024x2048_1_0_0_1_n_n.lhsBatch by decide), dif_pos (show (0 : Fin S1024x1024.rank) ∈ dot_S1024x1024_S1024x2048_S1024x2048_1_0_0_1_n_n.lhsNonContracting by decide)]
  rfl
theorem rhs1_1 (i : S1024x2048.Idx) (q : dot_S1024x1024_S1024x2048_S1024x2048_1_0_0_1_n_n.contr.Idx) :
    (dot_S1024x1024_S1024x2048_S1024x2048_1_0_0_1_n_n.rhsIdx i q 1).val = (i 1).val := by
  unfold DotDims.rhsIdx
  rw [dif_neg (show ¬(1 : Fin S1024x2048.rank) ∈ dot_S1024x1024_S1024x2048_S1024x2048_1_0_0_1_n_n.rhsBatch by decide), dif_pos (show (1 : Fin S1024x2048.rank) ∈ dot_S1024x1024_S1024x2048_S1024x2048_1_0_0_1_n_n.rhsNonContracting by decide)]
  rfl

/-- A product of a 1024×1024 by a 1024×2048 operand into a zero accumulator, read at (r, q): the sum over the
    contraction position of the row-r entries times the column-q entries. -/
theorem mm_1 (lhs : FVec Ideal S1024x1024 .bf16) (rhs : FVec Ideal S1024x2048 .bf16) (r : Fin 1024) (q : Fin 2048) :
    FloatOps.matmul dot_S1024x1024_S1024x2048_S1024x2048_1_0_0_1_n_n none lhs rhs (constant S1024x2048 .f32 0x00000000#32) (ix2 r q)
      = ∑ kk : Fin 1024, lhs (ix2 r kk) * rhs (ix2 kk q) := by
  rw [Ideal.matmul_constant_zero_apply, ← Equiv.sum_comp (contrEquiv1 dot_S1024x1024_S1024x2048_S1024x2048_1_0_0_1_n_n 1024 rfl rfl).symm]
  refine Finset.sum_congr rfl fun k _ => ?_
  have hk := contrEquiv1_symm_val dot_S1024x1024_S1024x2048_S1024x2048_1_0_0_1_n_n 1024 rfl rfl k
  have el : dot_S1024x1024_S1024x2048_S1024x2048_1_0_0_1_n_n.lhsIdx (ix2 r q) ((contrEquiv1 dot_S1024x1024_S1024x2048_S1024x2048_1_0_0_1_n_n 1024 rfl rfl).symm k) = ix2 r k := funext fun a => Fin.ext (by
    match a with
    | ⟨0, _⟩ => exact lhs1_0 _ _
    | ⟨1, _⟩ => exact (dot_S1024x1024_S1024x2048_S1024x2048_1_0_0_1_n_n.lhsIdx_val_of_single rfl _ _).trans hk)
  have er : dot_S1024x1024_S1024x2048_S1024x2048_1_0_0_1_n_n.rhsIdx (ix2 r q) ((contrEquiv1 dot_S1024x1024_S1024x2048_S1024x2048_1_0_0_1_n_n 1024 rfl rfl).symm k) = ix2 k q := funext fun a => Fin.ext (by
    match a with
    | ⟨0, _⟩ => exact (dot_S1024x1024_S1024x2048_S1024x2048_1_0_0_1_n_n.rhsIdx_val_of_single rfl _ _).trans hk
    | ⟨1, _⟩ => exact rhs1_1 _ _)
  rw [el, er]

/-- One accumulation step: the accumulator plus the block's row-by-column sum of products (the narrowing of the
    left operand is the identity on extended reals). -/
theorem pay2_1 (x : Vec Ideal S1024x1024 .f32) (a : Vec Ideal S1024x2048 .f32) (w : Vec Ideal S1024x2048 .bf16) (r : Fin 1024) (q : Fin 2048) :
    k1_pay2 (F := Ideal) x a w (ix2 r q) = a (ix2 r q) + ∑ kk : Fin 1024, x (ix2 r kk) * w (ix2 kk q) := by
  unfold k1_pay2
  rw [shapeCast_self, shapeCast_self]
  show a (ix2 r q) + FloatOps.matmul (F := Ideal) dot_S1024x1024_S1024x2048_S1024x2048_1_0_0_1_n_n none (truncf (F := Ideal) (φ := .f32) .bf16 x bitsLt_bf16_f32) w (constant (F := Ideal) S1024x2048 .f32 0x00000000#32) (ix2 r q) = _
  rw [mm_1]
  rfl

/-- The last step adds the bias row to every row of the accumulator. -/
theorem pay3_1 (a : Vec Ideal S1024x2048 .f32) (b : Vec Ideal S1x2048 .f32) (r : Fin 1024) (q : Fin 2048) :
    k1_pay3 (F := Ideal) a b (ix2 r q) = a (ix2 r q) + b (ix2 0 q) := by
  unfold k1_pay3
  rw [shapeCast_self]
  show a (ix2 r q) + broadcastTo S1024x2048 b broadcasts_S1x2048_S1024x2048 (ix2 r q) = _
  rw [broadcastTo_apply b broadcasts_S1x2048_S1024x2048 (ix2 r q) (ix2 0 q) (fun a => match a with
    | ⟨0, _⟩ => by show 0 = if (1 : Nat) = 1 then 0 else _; rw [if_pos rfl]
    | ⟨1, _⟩ => by show q.val = if (2048 : Nat) = 1 then 0 else q.val; rw [if_neg (by decide)])]

end Cert.KernelIdeal.Payloads

end
-- ==== Proof.Ideal.K0Value.lean ====
/-
  Region 0 (the support rows' product), the value side: what the accumulator and the output block hold after every grid
  point, and what the output array holds after the region, as one function of the arrays the region found.
  The body's stores are read back as the body's arithmetic of the blocks it loaded; each block is read at an index of its
  array; the accumulator after step k of a row tile is the sum of the first k + 1 partial products; the output block
  stored at step 47 is that sum over all 48 steps plus the bias row; the two row tiles' blocks tile the output array.
-/
import proofs.«126321_j46351287059071_2_alg».proof.Proof.Ideal.K0Body
import Idealize.ShloMosaic.Lib.ValueIdx
import Idealize.ShloMosaic.Lib.Pipeline.Value
import Idealize.ShloMosaic.PureOps.Ideal.Laws
import proofs.«126321_j46351287059071_2_alg».proof.Proof.Ideal.Payloads

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Cert.KernelIdeal.Payloads (psum psum_zero psum_succ psum_last pay1_0 pay2_0 pay3_0)
open scoped BigOperators

variable {F : FTy → Type} [FloatOps F]

local notation "𝕄" => MT nD τ sig Unit (Elt F) ℕ (UR sig nD τ) ℕ

/-! ## What each case leaves, as the body's arithmetic of the blocks it read -/

/-- Offsets (0, 0): a rectangle that starts at the block's origin. -/
theorem zeroOffsets : (![0, 0] : Fin 2 → Nat) = fun _ => 0 := funext fun a => by fin_cases a <;> rfl

/-- Step 0: the accumulator is first set to the zero block, read back, and one product is added to it. -/
theorem sout0_A_eq (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i) (x0 : Vec F S512x1024 .f32) (x1 : Vec F S1024x2048 .bf16) (x2 : Vec F S1x2048 .f32) :
    sout0_A c i arg2 harg2 arg3 harg3 arg4 harg4 arg5 harg5 arg6 harg6 hc0 hc1 x0 x1 x2 = k0_pay2 x0 (k0_pay1 (F := F)) x1 := by
  unfold sout0_A
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S512x2048) zeroOffsets, View.readCov_unit_zero (S := S512x2048) _ zeroOffsets]
  simp only [View.readAt_eq_ld, harg2.read_unread, harg3.read_unread, View.ld_unit_zero (S := S512x1024) zeroOffsets, View.ld_unit_zero (S := S1024x2048) zeroOffsets]

/-- A middle step: one product is added to what the accumulator held. -/
theorem sout0_B_eq (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i) (x0 : Vec F S512x1024 .f32) (x1 : Vec F S1024x2048 .bf16) (x2 : Vec F S1x2048 .f32) (xs0 : Vec F S512x2048 .f32) :
    sout0_B c i arg2 harg2 arg3 harg3 arg4 harg4 arg5 harg5 arg6 harg6 hc0 hc1 x0 x1 x2 xs0 = k0_pay2 x0 xs0 x1 := by
  unfold sout0_B
  rw [View.read_writes_eq_canon _ _ _ (scover0_B c i arg2 harg2 arg3 harg3 arg4 harg4 arg5 harg5 arg6 harg6 hc0 hc1 x0 x1 x2 xs0)]
  unfold kernelRun0_B
  dsimp only
  rw [View.canon_unit_zero zeroOffsets]
  simp only [View.readAt_eq_ld, harg2.read_unread, harg3.read_unread, harg6.read_unread, View.ld_unit_zero (S := S512x1024) zeroOffsets, View.ld_unit_zero (S := S1024x2048) zeroOffsets, View.ld_unit_zero (S := S512x2048) zeroOffsets]

/-- The last step leaves the same in the accumulator, -/
theorem sout0_C_eq (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec F S512x1024 .f32) (x1 : Vec F S1024x2048 .bf16) (x2 : Vec F S1x2048 .f32) (xs0 : Vec F S512x2048 .f32) :
    sout0_C c i arg2 harg2 arg3 harg3 arg4 harg4 arg5 harg5 arg6 harg6 hc0 hc1 x0 x1 x2 xs0 = k0_pay2 x0 xs0 x1 := by
  unfold sout0_C
  rw [View.read_writes_eq_canon _ _ _ (scover0_C c i arg2 harg2 arg3 harg3 arg4 harg4 arg5 harg5 arg6 harg6 hc0 hc1 x0 x1 x2 xs0)]
  unfold kernelRun0_C
  dsimp only
  sl_unfold_words
  rw [View.canon_unit_zero zeroOffsets]
  simp only [View.readAt_eq_ld, harg2.read_unread, harg3.read_unread, harg6.read_unread, View.ld_unit_zero (S := S512x1024) zeroOffsets, View.ld_unit_zero (S := S1024x2048) zeroOffsets, View.ld_unit_zero (S := S512x2048) zeroOffsets]

/-- and stores that plus the bias row into the output block. -/
theorem out0_C_eq (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec F S512x1024 .f32) (x1 : Vec F S1024x2048 .bf16) (x2 : Vec F S1x2048 .f32) (xs0 : Vec F S512x2048 .f32) :
    out0_C c i arg2 harg2 arg3 harg3 arg4 harg4 arg5 harg5 arg6 harg6 hc0 hc1 x0 x1 x2 xs0 = k0_pay3 (k0_pay2 x0 xs0 x1) x2 := by
  unfold out0_C
  rw [View.read_writes_eq_canon _ _ _ (cover0_C c i arg2 harg2 arg3 harg3 arg4 harg4 arg5 harg5 arg6 harg6 hc0 hc1 x0 x1 x2 xs0)]
  unfold kernelRun0_C
  dsimp only
  sl_unfold_words
  rw [View.canon_unit_zero zeroOffsets, View.readCov_unit_zero (S := S512x2048) _ zeroOffsets]
  simp only [View.readAt_eq_ld, harg2.read_unread, harg3.read_unread, harg4.read_unread, harg6.read_unread, View.ld_unit_zero (S := S512x1024) zeroOffsets, View.ld_unit_zero (S := S1024x2048) zeroOffsets, View.ld_unit_zero (S := S512x2048) zeroOffsets, View.ld_unit_zero (S := S1x2048) zeroOffsets]

section AnyValues

variable (V : (c : Dev nD) → (b : Ref sig .tc) → Buf (Elt F) ((c : Thread nD τ).loc b))

/-! ## The blocks, read at an index of their arrays -/

/-- The windows' block indices over the grid: point t is row tile t / 48 at reduction step t % 48. The left operand's
    block is (tile, step), the right operand's (step, 0), the bias row's (0, 0), the output's (tile, 0). -/
theorem blockIdx0 : ∀ t : Fin cfg0.N,
    win0_0.index t (0 : Fin 2) = t.val / 48 ∧ win0_0.index t (1 : Fin 2) = t.val % 48
    ∧ win0_1.index t (0 : Fin 2) = t.val % 48 ∧ win0_1.index t (1 : Fin 2) = 0
    ∧ win0_2.index t (0 : Fin 2) = 0 ∧ win0_2.index t (1 : Fin 2) = 0
    ∧ win0_3.index t (0 : Fin 2) = t.val / 48 ∧ win0_3.index t (1 : Fin 2) = 0 :=
  (by decide +kernel : ∀ t : Fin grid0.N, _)

theorem pointLt0 (t : Fin cfg0.N) : t.val < 96 := Nat.lt_of_lt_of_eq t.isLt N_0

/-- The left operand's block at point t holds rows 512·(t / 48) + r, columns 1024·(t % 48) + kk of the array. -/
theorem iblk0_0_apply (c : Dev nD) (t : Fin cfg0.N) (r : Fin 512) (kk : Fin 1024) :
    (iblk0 V c 0 t : Vec F S512x1024 .f32) (ix2 r kk)
      = (V c main_arg0 : S1024x49152.Idx → Elt F .f32)
          (ix2 (⟨t.val / 48 * 512 + r.val, by have := pointLt0 t; have := r.isLt; omega⟩ : Fin 1024)
               (⟨t.val % 48 * 1024 + kk.val, by have := kk.isLt; omega⟩ : Fin 49152)) := by
  obtain ⟨e0, e1, -⟩ := blockIdx0 t
  unfold iblk0
  rw [View.read_apply]
  show V c main_arg0 _ = V c main_arg0 _
  congr 1
  funext a
  apply Fin.ext
  match a with
  | ⟨0, _⟩ => show win0_0.index t 0 * 512 + 1 * r.val = t.val / 48 * 512 + r.val; rw [e0]; omega
  | ⟨1, _⟩ => show win0_0.index t 1 * 1024 + 1 * kk.val = t.val % 48 * 1024 + kk.val; rw [e1]; omega

/-- The right operand's block at point t holds rows 1024·(t % 48) + kk of the array, every column. -/
theorem iblk0_1_apply (c : Dev nD) (t : Fin cfg0.N) (kk : Fin 1024) (q : Fin 2048) :
    (iblk0 V c 1 t : Vec F S1024x2048 .bf16) (ix2 kk q)
      = (V c main_call0_v0 : S49152x2048.Idx → Elt F .bf16)
          (ix2 (⟨t.val % 48 * 1024 + kk.val, by have := kk.isLt; omega⟩ : Fin 49152) q) := by
  obtain ⟨-, -, e0, e1, -⟩ := blockIdx0 t
  unfold iblk0
  rw [View.read_apply]
  show V c main_call0_v0 _ = V c main_call0_v0 _
  congr 1
  funext a
  apply Fin.ext
  match a with
  | ⟨0, _⟩ => show win0_1.index t 0 * 1024 + 1 * kk.val = t.val % 48 * 1024 + kk.val; rw [e0]; omega
  | ⟨1, _⟩ => show win0_1.index t 1 * 2048 + 1 * q.val = q.val; rw [e1]; omega

/-- The bias row's block is the whole row at every point. -/
theorem iblk0_2_apply (c : Dev nD) (t : Fin cfg0.N) (q : Fin 2048) :
    (iblk0 V c 2 t : Vec F S1x2048 .f32) (ix2 0 q)
      = (V c main_call0_v1 : S1x2048.Idx → Elt F .f32) (ix2 0 q) := by
  obtain ⟨-, -, -, -, e0, e1, -⟩ := blockIdx0 t
  unfold iblk0
  rw [View.read_apply]
  show V c main_call0_v1 _ = V c main_call0_v1 _
  congr 1
  funext a
  apply Fin.ext
  match a with
  | ⟨0, _⟩ => show win0_2.index t 0 * 1 + 1 * 0 = 0; rw [e0]
  | ⟨1, _⟩ => show win0_2.index t 1 * 2048 + 1 * q.val = q.val; rw [e1]; omega

/-! ## The accumulator and the output block after a point, as the body's arithmetic of the point's blocks -/

theorem outsAt0_congr (c : Dev nD) {n n' : ℕ} (e : n = n') (h : n < cfg0.N) (h' : n' < cfg0.N) :
    outsAt0 V c n h = outsAt0 V c n' h' := by subst e; rfl

/-- After a point at step 0 the accumulator holds the zero block plus the point's product. -/
theorem acc0_first (c : Dev nD) (t : Fin cfg0.N) (h0 : t.val % 48 = 0) :
    (outsAt0 V c t.val t.isLt).2 = k0_pay2 (iblk0 V c 0 t) (k0_pay1 (F := F)) (iblk0 V c 1 t) := by
  have h1 : ¬t.val % 48 = 47 := by omega
  rw [outsAt0_A V c t h0 h1]
  dsimp only
  exact sout0_A_eq (F := F) c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)

/-- After a point at a later step it holds what the point before left plus the point's product. -/
theorem acc0_next (c : Dev nD) (t : Fin cfg0.N) (h0 : ¬t.val % 48 = 0) :
    (outsAt0 V c t.val t.isLt).2
      = k0_pay2 (iblk0 V c 0 t) (outsAt0 V c (t.val - 1) (Nat.lt_of_le_of_lt (Nat.sub_le _ _) t.isLt)).2 (iblk0 V c 1 t) := by
  by_cases h1 : t.val % 48 = 47
  · rw [outsAt0_C V c t h0 h1]
    dsimp only
    exact sout0_C_eq (F := F) c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2
  · rw [outsAt0_B V c t h0 h1]
    dsimp only
    exact sout0_B_eq (F := F) c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2

/-- At step 47 the output block is stored: the accumulator the point leaves plus the bias row. -/
theorem out0_last (c : Dev nD) (t : Fin cfg0.N) (h1 : t.val % 48 = 47) :
    (outsAt0 V c t.val t.isLt).1 = k0_pay3 (outsAt0 V c t.val t.isLt).2 (iblk0 V c 2 t) := by
  have h0 : ¬t.val % 48 = 0 := by omega
  rw [acc0_next V c t h0, outsAt0_C V c t h0 h1]
  dsimp only
  exact out0_C_eq (F := F) c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2

end AnyValues

section AtIdeal

variable (V : (c : Dev nD) → (b : Ref sig .tc) → Buf (Elt Ideal) ((c : Thread nD τ).loc b))

/-! ## Point by point over the extended reals -/

/-- The three arrays the region reads, as functions into the extended reals: the left operand, the right operand, the bias row. -/
abbrev lhs0 (c : Dev nD) : S1024x49152.Idx → EReal := V c main_arg0
abbrev rhs0 (c : Dev nD) : S49152x2048.Idx → EReal := V c main_call0_v0
abbrev bias0 (c : Dev nD) : S1x2048.Idx → EReal := V c main_call0_v1

/-- Output row R, column q: the part of the row-by-column product that reduction block kb contributes,
    the sum over the block's 1024 positions. -/
def prod0 (c : Dev nD) (R : Fin 1024) (q : Fin 2048) (kb : Fin 48) : EReal :=
  ∑ kk : Fin 1024,
    lhs0 V c (ix2 R (⟨kb.val * 1024 + kk.val, by have := kb.isLt; have := kk.isLt; omega⟩ : Fin 49152))
      * rhs0 V c (ix2 (⟨kb.val * 1024 + kk.val, by have := kb.isLt; have := kk.isLt; omega⟩ : Fin 49152) q)

/-- The product of the two blocks of point t, at (r, q), is the contribution of block t % 48 to row 512·(t / 48) + r. -/
theorem blockProd0 (c : Dev nD) (t : Fin cfg0.N) (r : Fin 512) (q : Fin 2048) (R : Fin 1024) (hR : R.val = t.val / 48 * 512 + r.val)
    (kb : Fin 48) (hkb : kb.val = t.val % 48)
    (x0 : Vec Ideal S512x1024 .f32) (x1 : Vec Ideal S1024x2048 .bf16) (hx0 : x0 = iblk0 V c 0 t) (hx1 : x1 = iblk0 V c 1 t) :
    (∑ kk : Fin 1024, x0 (ix2 r kk) * x1 (ix2 kk q)) = prod0 V c R q kb := by
  subst hx0 hx1
  unfold prod0
  refine Finset.sum_congr rfl fun kk _ => ?_
  refine congrArg₂ (fun (a b : EReal) => a * b) ((iblk0_0_apply V c t r kk).trans ?_) ((iblk0_1_apply V c t kk q).trans ?_)
  · exact congrArg (lhs0 V c) (congrArg₂ (fun (a : Fin 1024) (b : Fin 49152) => ix2 a b) (Fin.ext hR.symm) (Fin.ext (by show t.val % 48 * 1024 + kk.val = kb.val * 1024 + kk.val; rw [hkb])))
  · exact congrArg (rhs0 V c) (congrArg (fun (a : Fin 49152) => ix2 a q) (Fin.ext (by show t.val % 48 * 1024 + kk.val = kb.val * 1024 + kk.val; rw [hkb])))

/-- After step k of a row tile the accumulator holds, at (r, q), the sum of the contributions of blocks 0 … k. -/
theorem acc0_apply_aux (c : Dev nD) (r : Fin 512) (q : Fin 2048) :
    ∀ (n : ℕ) (hn : n < cfg0.N) (R : Fin 1024), R.val = n / 48 * 512 + r.val →
      (outsAt0 V c n hn).2 (ix2 r q) = psum (prod0 V c R q) (n % 48) := by
  intro n
  induction n with
  | zero =>
    intro hn R hR
    refine (congrFun (acc0_first V c ⟨0, hn⟩ (Nat.zero_mod _)) (ix2 r q)).trans ?_
    refine (pay2_0 _ _ _ r q).trans ?_
    rw [Nat.zero_mod, psum_zero]
    exact congrArg₂ (fun (a b : EReal) => a + b) (pay1_0 _) (blockProd0 V c ⟨0, hn⟩ r q R hR 0 rfl _ _ rfl rfl)
  | succ n ih =>
    intro hn R hR
    have h96 : n + 1 < 96 := Nat.lt_of_lt_of_eq hn N_0
    by_cases h0 : (n + 1) % 48 = 0
    · refine (congrFun (acc0_first V c ⟨n + 1, hn⟩ h0) (ix2 r q)).trans ?_
      refine (pay2_0 _ _ _ r q).trans ?_
      rw [h0, psum_zero]
      exact congrArg₂ (fun (a b : EReal) => a + b) (pay1_0 _) (blockProd0 V c ⟨n + 1, hn⟩ r q R hR 0 h0.symm _ _ rfl rfl)
    · refine (congrFun (acc0_next V c ⟨n + 1, hn⟩ h0) (ix2 r q)).trans ?_
      refine (pay2_0 _ _ _ r q).trans ?_
      have hk : (n + 1) % 48 = n % 48 + 1 := by omega
      have hlt : n % 48 + 1 < 48 := by omega
      rw [hk, psum_succ _ _ hlt]
      refine congrArg₂ (fun (a b : EReal) => a + b) ?_ (blockProd0 V c ⟨n + 1, hn⟩ r q R hR ⟨n % 48 + 1, hlt⟩ hk.symm _ _ rfl rfl)
      exact (congrFun (congrArg Prod.snd (outsAt0_congr V c (Nat.add_sub_cancel n 1) _ (Nat.lt_of_succ_lt hn))) (ix2 r q)).trans
        (ih (Nat.lt_of_succ_lt hn) R (by rw [hR]; show (n + 1) / 48 * 512 + r.val = n / 48 * 512 + r.val; omega))

theorem rowLt0 (t : Fin cfg0.N) (r : Fin 512) : t.val / 48 * 512 + r.val < 1024 := by
  have := pointLt0 t; have := r.isLt; omega

/-- The accumulator after point t, at (r, q). -/
theorem acc0_apply (c : Dev nD) (t : Fin cfg0.N) (r : Fin 512) (q : Fin 2048) :
    (outsAt0 V c t.val t.isLt).2 (ix2 r q) = psum (prod0 V c ⟨t.val / 48 * 512 + r.val, rowLt0 t r⟩ q) (t.val % 48) :=
  acc0_apply_aux V c r q t.val t.isLt ⟨t.val / 48 * 512 + r.val, rowLt0 t r⟩ rfl

/-- The output block stored at step 47, at (r, q): the whole row-by-column product plus the bias. -/
theorem out0_apply (c : Dev nD) (t : Fin cfg0.N) (h1 : t.val % 48 = 47) (r : Fin 512) (q : Fin 2048) :
    (outsAt0 V c t.val t.isLt).1 (ix2 r q)
      = (∑ kb : Fin 48, prod0 V c ⟨t.val / 48 * 512 + r.val, rowLt0 t r⟩ q kb) + bias0 V c (ix2 0 q) := by
  refine (congrFun (out0_last V c t h1) (ix2 r q)).trans ?_
  refine (pay3_0 _ _ r q).trans ?_
  refine congrArg₂ (fun (a b : EReal) => a + b) ((acc0_apply V c t r q).trans ?_) (iblk0_2_apply V c t q)
  rw [h1]
  exact psum_last _

/-! ## The output array after the region -/

/-- What the output array holds after the region: at row R, column q, the whole row-by-column product of the two
    operand arrays, summed block by block, plus the bias at column q. -/
def G0 (c : Dev nD) : S1024x2048.Idx → EReal :=
  fun i => (∑ kb : Fin 48, prod0 V c (i 0) (i 1) kb) + bias0 V c (ix2 0 (i 1))

theorem G0_apply (c : Dev nD) (R : Fin 1024) (q : Fin 2048) :
    G0 V c (ix2 R q) = (∑ kb : Fin 48, prod0 V c R q kb) + bias0 V c (ix2 0 q) := rfl

/-- An index of the output array is in point t's block iff each coordinate is in the block's range on its axis. -/
theorem mem_blk0_3 (t : Fin cfg0.N) (i : S1024x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_call0_v2).slice (win0_3.rect t)).set ↔ _
  rw [View.set_slice_whole, Rect.mem_set_unit]
  exact Iff.rfl

/-- What a point at step 47 writes back is its block of G0. -/
theorem flushed0_eq (c : Dev nD) (t : Fin cfg0.N) (hf : (cfg0.win 3).flush t = true) :
    (dat0 V c).flushed 3 t = ((cfg0.win 3).blk t).view.read (Elt Ideal) (G0 V c) := by
  have h1 : t.val % 48 = 47 := (flush0_3 t).mp hf
  obtain ⟨-, -, -, -, -, -, e0, e1⟩ := blockIdx0 t
  show (cfg0.win 3).cut (grid0.coords t) ((dat0 V c).after 3 t) = _
  rw [after0_3]
  refine funext fun (j : S512x2048.Idx) => ?_
  obtain ⟨r, q, rfl⟩ : ∃ (r : Fin 512) (q : Fin 2048), j = ix2 r q := ⟨j 0, j 1, eq_ix2 j⟩
  show (outsAt0 V c t.val t.isLt).1 (ix2 r q) = G0 V c (((cfg0.win 3).blk t).view.emb (ix2 r q))
  refine (out0_apply V c t h1 r q).trans ?_
  refine (G0_apply V c _ q).symm.trans (congrArg (G0 V c) ?_)
  funext a
  apply Fin.ext
  match a with
  | ⟨0, _⟩ => show t.val / 48 * 512 + r.val = win0_3.index t 0 * 512 + 1 * r.val; rw [e0]; omega
  | ⟨1, _⟩ => show q.val = win0_3.index t 1 * 2048 + 1 * q.val; rw [e1]; omega

/-- The blocks written back at step 47 of the two row tiles cover the output array (row R lies in row tile R / 512),
    so after the region the array holds G0. -/
theorem final0 (c : Dev nD) : (dat0 V c).arrAt 3 cfg0.N = G0 V c :=
  (dat0 V c).arrAt_eq_of_cover 3 (G0 V c) (flushed0_eq V c) fun i => by
    have hi0 : (i 0).val < 1024 := (i 0).isLt
    have hi1 : (i 1).val < 2048 := (i 1).isLt
    have hlt : (i 0).val / 512 * 48 + 47 < cfg0.N := Nat.lt_of_lt_of_eq (by omega) N_0.symm
    have h47 : ((i 0).val / 512 * 48 + 47) % 48 = 47 := by omega
    have hdiv : ((i 0).val / 512 * 48 + 47) / 48 = (i 0).val / 512 := by omega
    refine ⟨⟨(i 0).val / 512 * 48 + 47, hlt⟩, (flush0_3 _).mpr h47, ?_⟩
    obtain ⟨-, -, -, -, -, -, e0, e1⟩ := blockIdx0 ⟨(i 0).val / 512 * 48 + 47, hlt⟩
    rw [mem_blk0_3]
    intro a
    match a with
    | ⟨0, _⟩ =>
      show win0_3.index ⟨(i 0).val / 512 * 48 + 47, hlt⟩ 0 * 512 ≤ (i 0).val ∧ (i 0).val < win0_3.index ⟨(i 0).val / 512 * 48 + 47, hlt⟩ 0 * 512 + 512
      rw [e0]
      show ((i 0).val / 512 * 48 + 47) / 48 * 512 ≤ (i 0).val ∧ (i 0).val < ((i 0).val / 512 * 48 + 47) / 48 * 512 + 512
      rw [hdiv]; omega
    | ⟨1, _⟩ =>
      show win0_3.index ⟨(i 0).val / 512 * 48 + 47, hlt⟩ 1 * 2048 ≤ (i 1).val ∧ (i 1).val < win0_3.index ⟨(i 0).val / 512 * 48 + 47, hlt⟩ 1 * 2048 + 2048
      rw [e1]; omega

end AtIdeal

end Cert.KernelIdeal.Hand

end
-- ==== Proof.Ideal.K1Value.lean ====
/-
  Region 1 (the query rows' product), the value side: what the accumulator and the output block hold after every grid
  point, and what the output array holds after the region, as one function of the arrays the region found.
  The body's stores are read back as the body's arithmetic of the blocks it loaded; each block is read at an index of its
  array; the accumulator after step k of a row tile is the sum of the first k + 1 partial products; the output block
  stored at step 47 is that sum over all 48 steps plus the bias row; the two row tiles' blocks tile the output array.
-/
import proofs.«126321_j46351287059071_2_alg».proof.Proof.Ideal.K1Body
import proofs.«126321_j46351287059071_2_alg».proof.Proof.Ideal.K0Value
import Idealize.ShloMosaic.Lib.ValueIdx
import Idealize.ShloMosaic.Lib.Pipeline.Value
import Idealize.ShloMosaic.PureOps.Ideal.Laws
import proofs.«126321_j46351287059071_2_alg».proof.Proof.Ideal.Payloads

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Cert.KernelIdeal.Payloads (psum psum_zero psum_succ psum_last pay1_1 pay2_1 pay3_1)
open scoped BigOperators

variable {F : FTy → Type} [FloatOps F]

local notation "𝕄" => MT nD τ sig Unit (Elt F) ℕ (UR sig nD τ) ℕ

/-! ## What each case leaves, as the body's arithmetic of the blocks it read -/

/-- Step 0: the accumulator is first set to the zero block, read back, and one product is added to it. -/
theorem sout1_A_eq (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i) (x0 : Vec F S1024x1024 .f32) (x1 : Vec F S1024x2048 .bf16) (x2 : Vec F S1x2048 .f32) :
    sout1_A c i arg2 harg2 arg3 harg3 arg4 harg4 arg5 harg5 arg6 harg6 hc0 hc1 x0 x1 x2 = k1_pay2 x0 (k1_pay1 (F := F)) x1 := by
  unfold sout1_A
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S1024x2048) zeroOffsets, View.readCov_unit_zero (S := S1024x2048) _ zeroOffsets]
  simp only [View.readAt_eq_ld, harg2.read_unread, harg3.read_unread, View.ld_unit_zero (S := S1024x1024) zeroOffsets, View.ld_unit_zero (S := S1024x2048) zeroOffsets]

/-- A middle step: one product is added to what the accumulator held. -/
theorem sout1_B_eq (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i) (x0 : Vec F S1024x1024 .f32) (x1 : Vec F S1024x2048 .bf16) (x2 : Vec F S1x2048 .f32) (xs0 : Vec F S1024x2048 .f32) :
    sout1_B c i arg2 harg2 arg3 harg3 arg4 harg4 arg5 harg5 arg6 harg6 hc0 hc1 x0 x1 x2 xs0 = k1_pay2 x0 xs0 x1 := by
  unfold sout1_B
  rw [View.read_writes_eq_canon _ _ _ (scover1_B c i arg2 harg2 arg3 harg3 arg4 harg4 arg5 harg5 arg6 harg6 hc0 hc1 x0 x1 x2 xs0)]
  unfold kernelRun1_B
  dsimp only
  rw [View.canon_unit_zero zeroOffsets]
  simp only [View.readAt_eq_ld, harg2.read_unread, harg3.read_unread, harg6.read_unread, View.ld_unit_zero (S := S1024x1024) zeroOffsets, View.ld_unit_zero (S := S1024x2048) zeroOffsets, View.ld_unit_zero (S := S1024x2048) zeroOffsets]

/-- The last step leaves the same in the accumulator, -/
theorem sout1_C_eq (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x1024 .f32) (x1 : Vec F S1024x2048 .bf16) (x2 : Vec F S1x2048 .f32) (xs0 : Vec F S1024x2048 .f32) :
    sout1_C c i arg2 harg2 arg3 harg3 arg4 harg4 arg5 harg5 arg6 harg6 hc0 hc1 x0 x1 x2 xs0 = k1_pay2 x0 xs0 x1 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero zeroOffsets]
  simp only [View.readAt_eq_ld, harg2.read_unread, harg3.read_unread, harg6.read_unread, View.ld_unit_zero (S := S1024x1024) zeroOffsets, View.ld_unit_zero (S := S1024x2048) zeroOffsets, View.ld_unit_zero (S := S1024x2048) zeroOffsets]

/-- and stores that plus the bias row into the output block. -/
theorem out1_C_eq (c : Dev nD) (i : grid1.Coords) (arg2 : Memref sig .tc .vmem S1024x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x1024 .f32) (x1 : Vec F S1024x2048 .bf16) (x2 : Vec F S1x2048 .f32) (xs0 : Vec F S1024x2048 .f32) :
    out1_C c i arg2 harg2 arg3 harg3 arg4 harg4 arg5 harg5 arg6 harg6 hc0 hc1 x0 x1 x2 xs0 = k1_pay3 (k1_pay2 x0 xs0 x1) x2 := by
  unfold out1_C
  rw [View.read_writes_eq_canon _ _ _ (cover1_C c i arg2 harg2 arg3 harg3 arg4 harg4 arg5 harg5 arg6 harg6 hc0 hc1 x0 x1 x2 xs0)]
  unfold kernelRun1_C
  dsimp only
  sl_unfold_words
  rw [View.canon_unit_zero zeroOffsets, View.readCov_unit_zero (S := S1024x2048) _ zeroOffsets]
  simp only [View.readAt_eq_ld, harg2.read_unread, harg3.read_unread, harg4.read_unread, harg6.read_unread, View.ld_unit_zero (S := S1024x1024) zeroOffsets, View.ld_unit_zero (S := S1024x2048) zeroOffsets, View.ld_unit_zero (S := S1024x2048) zeroOffsets, View.ld_unit_zero (S := S1x2048) zeroOffsets]

section AnyValues

variable (V : (c : Dev nD) → (b : Ref sig .tc) → Buf (Elt F) ((c : Thread nD τ).loc b))

/-! ## The blocks, read at an index of their arrays -/

/-- The windows' block indices over the grid: point t is row tile t / 48 at reduction step t % 48. The left operand's
    block is (tile, step), the right operand's (step, 0), the bias row's (0, 0), the output's (tile, 0). -/
theorem blockIdx1 : ∀ t : Fin cfg1.N,
    win1_0.index t (0 : Fin 2) = t.val / 48 ∧ win1_0.index t (1 : Fin 2) = t.val % 48
    ∧ win1_1.index t (0 : Fin 2) = t.val % 48 ∧ win1_1.index t (1 : Fin 2) = 0
    ∧ win1_2.index t (0 : Fin 2) = 0 ∧ win1_2.index t (1 : Fin 2) = 0
    ∧ win1_3.index t (0 : Fin 2) = t.val / 48 ∧ win1_3.index t (1 : Fin 2) = 0 :=
  (by decide +kernel : ∀ t : Fin grid1.N, _)

theorem pointLt1 (t : Fin cfg1.N) : t.val < 96 := Nat.lt_of_lt_of_eq t.isLt N_1

/-- The left operand's block at point t holds rows 1024·(t / 48) + r, columns 1024·(t % 48) + kk of the array. -/
theorem iblk1_0_apply (c : Dev nD) (t : Fin cfg1.N) (r : Fin 1024) (kk : Fin 1024) :
    (iblk1 V c 0 t : Vec F S1024x1024 .f32) (ix2 r kk)
      = (V c main_arg2 : S2048x49152.Idx → Elt F .f32)
          (ix2 (⟨t.val / 48 * 1024 + r.val, by have := pointLt1 t; have := r.isLt; omega⟩ : Fin 2048)
               (⟨t.val % 48 * 1024 + kk.val, by have := kk.isLt; omega⟩ : Fin 49152)) := by
  obtain ⟨e0, e1, -⟩ := blockIdx1 t
  unfold iblk1
  rw [View.read_apply]
  show V c main_arg2 _ = V c main_arg2 _
  congr 1
  funext a
  apply Fin.ext
  match a with
  | ⟨0, _⟩ => show win1_0.index t 0 * 1024 + 1 * r.val = t.val / 48 * 1024 + r.val; rw [e0]; omega
  | ⟨1, _⟩ => show win1_0.index t 1 * 1024 + 1 * kk.val = t.val % 48 * 1024 + kk.val; rw [e1]; omega

/-- The right operand's block at point t holds rows 1024·(t % 48) + kk of the array, every column. -/
theorem iblk1_1_apply (c : Dev nD) (t : Fin cfg1.N) (kk : Fin 1024) (q : Fin 2048) :
    (iblk1 V c 1 t : Vec F S1024x2048 .bf16) (ix2 kk q)
      = (V c main_call0_v0 : S49152x2048.Idx → Elt F .bf16)
          (ix2 (⟨t.val % 48 * 1024 + kk.val, by have := kk.isLt; omega⟩ : Fin 49152) q) := by
  obtain ⟨-, -, e0, e1, -⟩ := blockIdx1 t
  unfold iblk1
  rw [View.read_apply]
  show V c main_call0_v0 _ = V c main_call0_v0 _
  congr 1
  funext a
  apply Fin.ext
  match a with
  | ⟨0, _⟩ => show win1_1.index t 0 * 1024 + 1 * kk.val = t.val % 48 * 1024 + kk.val; rw [e0]; omega
  | ⟨1, _⟩ => show win1_1.index t 1 * 2048 + 1 * q.val = q.val; rw [e1]; omega

/-- The bias row's block is the whole row at every point. -/
theorem iblk1_2_apply (c : Dev nD) (t : Fin cfg1.N) (q : Fin 2048) :
    (iblk1 V c 2 t : Vec F S1x2048 .f32) (ix2 0 q)
      = (V c main_call0_v3 : S1x2048.Idx → Elt F .f32) (ix2 0 q) := by
  obtain ⟨-, -, -, -, e0, e1, -⟩ := blockIdx1 t
  unfold iblk1
  rw [View.read_apply]
  show V c main_call0_v3 _ = V c main_call0_v3 _
  congr 1
  funext a
  apply Fin.ext
  match a with
  | ⟨0, _⟩ => show win1_2.index t 0 * 1 + 1 * 0 = 0; rw [e0]
  | ⟨1, _⟩ => show win1_2.index t 1 * 2048 + 1 * q.val = q.val; rw [e1]; omega

/-! ## The accumulator and the output block after a point, as the body's arithmetic of the point's blocks -/

theorem outsAt1_congr (c : Dev nD) {n n' : ℕ} (e : n = n') (h : n < cfg1.N) (h' : n' < cfg1.N) :
    outsAt1 V c n h = outsAt1 V c n' h' := by subst e; rfl

/-- After a point at step 0 the accumulator holds the zero block plus the point's product. -/
theorem acc1_first (c : Dev nD) (t : Fin cfg1.N) (h0 : t.val % 48 = 0) :
    (outsAt1 V c t.val t.isLt).2 = k1_pay2 (iblk1 V c 0 t) (k1_pay1 (F := F)) (iblk1 V c 1 t) := by
  have h1 : ¬t.val % 48 = 47 := by omega
  rw [outsAt1_A V c t h0 h1]
  dsimp only
  exact sout1_A_eq (F := F) c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)

/-- After a point at a later step it holds what the point before left plus the point's product. -/
theorem acc1_next (c : Dev nD) (t : Fin cfg1.N) (h0 : ¬t.val % 48 = 0) :
    (outsAt1 V c t.val t.isLt).2
      = k1_pay2 (iblk1 V c 0 t) (outsAt1 V c (t.val - 1) (Nat.lt_of_le_of_lt (Nat.sub_le _ _) t.isLt)).2 (iblk1 V c 1 t) := by
  by_cases h1 : t.val % 48 = 47
  · rw [outsAt1_C V c t h0 h1]
    dsimp only
    exact sout1_C_eq (F := F) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]
    dsimp only
    exact sout1_B_eq (F := F) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- At step 47 the output block is stored: the accumulator the point leaves plus the bias row. -/
theorem out1_last (c : Dev nD) (t : Fin cfg1.N) (h1 : t.val % 48 = 47) :
    (outsAt1 V c t.val t.isLt).1 = k1_pay3 (outsAt1 V c t.val t.isLt).2 (iblk1 V c 2 t) := by
  have h0 : ¬t.val % 48 = 0 := by omega
  rw [acc1_next V c t h0, outsAt1_C V c t h0 h1]
  dsimp only
  exact out1_C_eq (F := F) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

end AnyValues

section AtIdeal

variable (V : (c : Dev nD) → (b : Ref sig .tc) → Buf (Elt Ideal) ((c : Thread nD τ).loc b))

/-! ## Point by point over the extended reals -/

/-- The three arrays the region reads, as functions into the extended reals: the left operand, the right operand, the bias row. -/
abbrev lhs1 (c : Dev nD) : S2048x49152.Idx → EReal := V c main_arg2
abbrev rhs1 (c : Dev nD) : S49152x2048.Idx → EReal := V c main_call0_v0
abbrev bias1 (c : Dev nD) : S1x2048.Idx → EReal := V c main_call0_v3

/-- Output row R, column q: the part of the row-by-column product that reduction block kb contributes,
    the sum over the block's 1024 positions. -/
def prod1 (c : Dev nD) (R : Fin 2048) (q : Fin 2048) (kb : Fin 48) : EReal :=
  ∑ kk : Fin 1024,
    lhs1 V c (ix2 R (⟨kb.val * 1024 + kk.val, by have := kb.isLt; have := kk.isLt; omega⟩ : Fin 49152))
      * rhs1 V c (ix2 (⟨kb.val * 1024 + kk.val, by have := kb.isLt; have := kk.isLt; omega⟩ : Fin 49152) q)

/-- The product of the two blocks of point t, at (r, q), is the contribution of block t % 48 to row 1024·(t / 48) + r. -/
theorem blockProd1 (c : Dev nD) (t : Fin cfg1.N) (r : Fin 1024) (q : Fin 2048) (R : Fin 2048) (hR : R.val = t.val / 48 * 1024 + r.val)
    (kb : Fin 48) (hkb : kb.val = t.val % 48)
    (x0 : Vec Ideal S1024x1024 .f32) (x1 : Vec Ideal S1024x2048 .bf16) (hx0 : x0 = iblk1 V c 0 t) (hx1 : x1 = iblk1 V c 1 t) :
    (∑ kk : Fin 1024, x0 (ix2 r kk) * x1 (ix2 kk q)) = prod1 V c R q kb := by
  subst hx0 hx1
  unfold prod1
  refine Finset.sum_congr rfl fun kk _ => ?_
  refine congrArg₂ (fun (a b : EReal) => a * b) ((iblk1_0_apply V c t r kk).trans ?_) ((iblk1_1_apply V c t kk q).trans ?_)
  · exact congrArg (lhs1 V c) (congrArg₂ (fun (a : Fin 2048) (b : Fin 49152) => ix2 a b) (Fin.ext hR.symm) (Fin.ext (by show t.val % 48 * 1024 + kk.val = kb.val * 1024 + kk.val; rw [hkb])))
  · exact congrArg (rhs1 V c) (congrArg (fun (a : Fin 49152) => ix2 a q) (Fin.ext (by show t.val % 48 * 1024 + kk.val = kb.val * 1024 + kk.val; rw [hkb])))

/-- After step k of a row tile the accumulator holds, at (r, q), the sum of the contributions of blocks 0 … k. -/
theorem acc1_apply_aux (c : Dev nD) (r : Fin 1024) (q : Fin 2048) :
    ∀ (n : ℕ) (hn : n < cfg1.N) (R : Fin 2048), R.val = n / 48 * 1024 + r.val →
      (outsAt1 V c n hn).2 (ix2 r q) = psum (prod1 V c R q) (n % 48) := by
  intro n
  induction n with
  | zero =>
    intro hn R hR
    refine (congrFun (acc1_first V c ⟨0, hn⟩ (Nat.zero_mod _)) (ix2 r q)).trans ?_
    refine (pay2_1 _ _ _ r q).trans ?_
    rw [Nat.zero_mod, psum_zero]
    exact congrArg₂ (fun (a b : EReal) => a + b) (pay1_1 _) (blockProd1 V c ⟨0, hn⟩ r q R hR 0 rfl _ _ rfl rfl)
  | succ n ih =>
    intro hn R hR
    have h96 : n + 1 < 96 := Nat.lt_of_lt_of_eq hn N_1
    by_cases h0 : (n + 1) % 48 = 0
    · refine (congrFun (acc1_first V c ⟨n + 1, hn⟩ h0) (ix2 r q)).trans ?_
      refine (pay2_1 _ _ _ r q).trans ?_
      rw [h0, psum_zero]
      exact congrArg₂ (fun (a b : EReal) => a + b) (pay1_1 _) (blockProd1 V c ⟨n + 1, hn⟩ r q R hR 0 h0.symm _ _ rfl rfl)
    · refine (congrFun (acc1_next V c ⟨n + 1, hn⟩ h0) (ix2 r q)).trans ?_
      refine (pay2_1 _ _ _ r q).trans ?_
      have hk : (n + 1) % 48 = n % 48 + 1 := by omega
      have hlt : n % 48 + 1 < 48 := by omega
      rw [hk, psum_succ _ _ hlt]
      refine congrArg₂ (fun (a b : EReal) => a + b) ?_ (blockProd1 V c ⟨n + 1, hn⟩ r q R hR ⟨n % 48 + 1, hlt⟩ hk.symm _ _ rfl rfl)
      exact (congrFun (congrArg Prod.snd (outsAt1_congr V c (Nat.add_sub_cancel n 1) _ (Nat.lt_of_succ_lt hn))) (ix2 r q)).trans
        (ih (Nat.lt_of_succ_lt hn) R (by rw [hR]; show (n + 1) / 48 * 1024 + r.val = n / 48 * 1024 + r.val; omega))

theorem rowLt1 (t : Fin cfg1.N) (r : Fin 1024) : t.val / 48 * 1024 + r.val < 2048 := by
  have := pointLt1 t; have := r.isLt; omega

/-- The accumulator after point t, at (r, q). -/
theorem acc1_apply (c : Dev nD) (t : Fin cfg1.N) (r : Fin 1024) (q : Fin 2048) :
    (outsAt1 V c t.val t.isLt).2 (ix2 r q) = psum (prod1 V c ⟨t.val / 48 * 1024 + r.val, rowLt1 t r⟩ q) (t.val % 48) :=
  acc1_apply_aux V c r q t.val t.isLt ⟨t.val / 48 * 1024 + r.val, rowLt1 t r⟩ rfl

/-- The output block stored at step 47, at (r, q): the whole row-by-column product plus the bias. -/
theorem out1_apply (c : Dev nD) (t : Fin cfg1.N) (h1 : t.val % 48 = 47) (r : Fin 1024) (q : Fin 2048) :
    (outsAt1 V c t.val t.isLt).1 (ix2 r q)
      = (∑ kb : Fin 48, prod1 V c ⟨t.val / 48 * 1024 + r.val, rowLt1 t r⟩ q kb) + bias1 V c (ix2 0 q) := by
  refine (congrFun (out1_last V c t h1) (ix2 r q)).trans ?_
  refine (pay3_1 _ _ r q).trans ?_
  refine congrArg₂ (fun (a b : EReal) => a + b) ((acc1_apply V c t r q).trans ?_) (iblk1_2_apply V c t q)
  rw [h1]
  exact psum_last _

/-! ## The output array after the region -/

/-- What the output array holds after the region: at row R, column q, the whole row-by-column product of the two
    operand arrays, summed block by block, plus the bias at column q. -/
def G1 (c : Dev nD) : S2048x2048.Idx → EReal :=
  fun i => (∑ kb : Fin 48, prod1 V c (i 0) (i 1) kb) + bias1 V c (ix2 0 (i 1))

theorem G1_apply (c : Dev nD) (R : Fin 2048) (q : Fin 2048) :
    G1 V c (ix2 R q) = (∑ kb : Fin 48, prod1 V c R q kb) + bias1 V c (ix2 0 q) := rfl

/-- An index of the output array is in point t's block iff each coordinate is in the block's range on its axis. -/
theorem mem_blk1_3 (t : Fin cfg1.N) (i : S2048x2048.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_call0_v4).slice (win1_3.rect t)).set ↔ _
  rw [View.set_slice_whole, Rect.mem_set_unit]
  exact Iff.rfl

/-- What a point at step 47 writes back is its block of G1. -/
theorem flushed1_eq (c : Dev nD) (t : Fin cfg1.N) (hf : (cfg1.win 3).flush t = true) :
    (dat1 V c).flushed 3 t = ((cfg1.win 3).blk t).view.read (Elt Ideal) (G1 V c) := by
  have h1 : t.val % 48 = 47 := (flush1_3 t).mp hf
  obtain ⟨-, -, -, -, -, -, e0, e1⟩ := blockIdx1 t
  show (cfg1.win 3).cut (grid1.coords t) ((dat1 V c).after 3 t) = _
  rw [after1_3]
  refine funext fun (j : S1024x2048.Idx) => ?_
  obtain ⟨r, q, rfl⟩ : ∃ (r : Fin 1024) (q : Fin 2048), j = ix2 r q := ⟨j 0, j 1, eq_ix2 j⟩
  show (outsAt1 V c t.val t.isLt).1 (ix2 r q) = G1 V c (((cfg1.win 3).blk t).view.emb (ix2 r q))
  refine (out1_apply V c t h1 r q).trans ?_
  refine (G1_apply V c _ q).symm.trans (congrArg (G1 V c) ?_)
  funext a
  apply Fin.ext
  match a with
  | ⟨0, _⟩ => show t.val / 48 * 1024 + r.val = win1_3.index t 0 * 1024 + 1 * r.val; rw [e0]; omega
  | ⟨1, _⟩ => show q.val = win1_3.index t 1 * 2048 + 1 * q.val; rw [e1]; omega

/-- The blocks written back at step 47 of the two row tiles cover the output array (row R lies in row tile R / 1024),
    so after the region the array holds G1. -/
theorem final1 (c : Dev nD) : (dat1 V c).arrAt 3 cfg1.N = G1 V c :=
  (dat1 V c).arrAt_eq_of_cover 3 (G1 V c) (flushed1_eq V c) fun i => by
    have hi0 : (i 0).val < 2048 := (i 0).isLt
    have hi1 : (i 1).val < 2048 := (i 1).isLt
    have hlt : (i 0).val / 1024 * 48 + 47 < cfg1.N := Nat.lt_of_lt_of_eq (by omega) N_1.symm
    have h47 : ((i 0).val / 1024 * 48 + 47) % 48 = 47 := by omega
    have hdiv : ((i 0).val / 1024 * 48 + 47) / 48 = (i 0).val / 1024 := by omega
    refine ⟨⟨(i 0).val / 1024 * 48 + 47, hlt⟩, (flush1_3 _).mpr h47, ?_⟩
    obtain ⟨-, -, -, -, -, -, e0, e1⟩ := blockIdx1 ⟨(i 0).val / 1024 * 48 + 47, hlt⟩
    rw [mem_blk1_3]
    intro a
    match a with
    | ⟨0, _⟩ =>
      show win1_3.index ⟨(i 0).val / 1024 * 48 + 47, hlt⟩ 0 * 1024 ≤ (i 0).val ∧ (i 0).val < win1_3.index ⟨(i 0).val / 1024 * 48 + 47, hlt⟩ 0 * 1024 + 1024
      rw [e0]
      show ((i 0).val / 1024 * 48 + 47) / 48 * 1024 ≤ (i 0).val ∧ (i 0).val < ((i 0).val / 1024 * 48 + 47) / 48 * 1024 + 1024
      rw [hdiv]; omega
    | ⟨1, _⟩ =>
      show win1_3.index ⟨(i 0).val / 1024 * 48 + 47, hlt⟩ 1 * 2048 ≤ (i 1).val ∧ (i 1).val < win1_3.index ⟨(i 0).val / 1024 * 48 + 47, hlt⟩ 1 * 2048 + 2048
      rw [e1]; omega

end AtIdeal

end Cert.KernelIdeal.Hand

end
-- ==== Proof.RefSide.lean ====
import proofs.«126321_j46351287059071_2_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefSide

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The reference's operations after the two biased products, as one term: `zs` stands for the support
    product plus bias (1024×2048), `zq` for the query product plus bias (2048×2048), `lab` for the labels.
    Segment sums of `zs` by label divided by the segment counts give the 64 prototypes; the result is the
    matrix of inner products of the query rows with the prototypes, each divided by the larger of the
    product of the two Euclidean norms and a fixed positive constant. -/
noncomputable def tailR (zs : (⟨S1024x2048, .f32⟩ : BufTy).Contents (Elt Ideal)) (zq : (⟨S2048x2048, .f32⟩ : BufTy).Contents (Elt Ideal)) (lab : (⟨S1024, .i32⟩ : BufTy).Contents (Elt Ideal)) : (⟨S2048x64, .f32⟩ : BufTy).Contents (Elt Ideal) :=
  let cst : (⟨S_, .f32⟩ : BufTy).Contents (Elt Ideal) := constant (F := Ideal) S_ .f32 0x00000000#32
  let v8 : (⟨S64x2048, .f32⟩ : BufTy).Contents (Elt Ideal) := broadcastInDim S64x2048 ![] bcast_S_S64x2048 cst
  let v9 : (⟨S1024x1, .i32⟩ : BufTy).Contents (Elt Ideal) := broadcastInDim S1024x1 ![0] bcast_S1024_S1024x1_0 lab
  let v10 : (⟨S64x2048, .f32⟩ : BufTy).Contents (Elt Ideal) := Host.scatterAdd (F := Ideal) (φ := .f32) scatter_S64x2048_S1024x1_S1024x2048_1_0_0_1 v8 v9 zs
  let cst_0 : (⟨S_, .f32⟩ : BufTy).Contents (Elt Ideal) := constant (F := Ideal) S_ .f32 0x3F800000#32
  let v11 : (⟨S1024, .f32⟩ : BufTy).Contents (Elt Ideal) := broadcastInDim S1024 ![] bcast_S_S1024 cst_0
  let cst_1 : (⟨S_, .f32⟩ : BufTy).Contents (Elt Ideal) := constant (F := Ideal) S_ .f32 0x00000000#32
  let v12 : (⟨S64, .f32⟩ : BufTy).Contents (Elt Ideal) := broadcastInDim S64 ![] bcast_S_S64 cst_1
  let v13 : (⟨S1024x1, .i32⟩ : BufTy).Contents (Elt Ideal) := broadcastInDim S1024x1 ![0] bcast_S1024_S1024x1_0 lab
  let v14 : (⟨S64, .f32⟩ : BufTy).Contents (Elt Ideal) := Host.scatterAdd (F := Ideal) (φ := .f32) scatter_S64_S1024x1_S1024_n_0_0_1 v12 v13 v11
  let v15 : (⟨S64x1, .f32⟩ : BufTy).Contents (Elt Ideal) := broadcastInDim S64x1 ![0] bcast_S64_S64x1_0 v14
  let v16 : (⟨S64x2048, .f32⟩ : BufTy).Contents (Elt Ideal) := broadcastInDim S64x2048 ![0, 1] bcast_S64x1_S64x2048_0_1 v15
  let v17 : (⟨S64x2048, .f32⟩ : BufTy).Contents (Elt Ideal) := Host.divf (F := Ideal) (φ := .f32) v10 v16
  let n0sq : (⟨S2048x2048, .f32⟩ : BufTy).Contents (Elt Ideal) := mulf (F := Ideal) (φ := .f32) zq zq
  let n0cst : (⟨S_, .f32⟩ : BufTy).Contents (Elt Ideal) := constant (F := Ideal) S_ .f32 0x00000000#32
  let n0sum : (⟨S2048, .f32⟩ : BufTy).Contents (Elt Ideal) := Host.reduceAdd (F := Ideal) (φ := .f32) n0sq n0cst reducesTo_S2048x2048_S2048_d1 h_S_
  let v18 : (⟨S2048, .f32⟩ : BufTy).Contents (Elt Ideal) := Host.sqrt (F := Ideal) (φ := .f32) n0sum
  let n1sq : (⟨S64x2048, .f32⟩ : BufTy).Contents (Elt Ideal) := mulf (F := Ideal) (φ := .f32) v17 v17
  let n1cst : (⟨S_, .f32⟩ : BufTy).Contents (Elt Ideal) := constant (F := Ideal) S_ .f32 0x00000000#32
  let n1sum : (⟨S64, .f32⟩ : BufTy).Contents (Elt Ideal) := Host.reduceAdd (F := Ideal) (φ := .f32) n1sq n1cst reducesTo_S64x2048_S64_d1 h_S_
  let v19 : (⟨S64, .f32⟩ : BufTy).Contents (Elt Ideal) := Host.sqrt (F := Ideal) (φ := .f32) n1sum
  let v20 : (⟨S2048x64, .f32⟩ : BufTy).Contents (Elt Ideal) := transpose S2048x64 [1, 0] v17 transposes_S64x2048_S2048x64_1_0
  let v21 : (⟨S2048x64, .f32⟩ : BufTy).Contents (Elt Ideal) := Host.dotGeneral (F := Ideal) (φ₁ := .f32) (φ₂ := .f32) dot_S2048x2048_S2048x64_S2048x64_1_0_0_1_n_n none zq v20
  let v22 : (⟨S2048x1, .f32⟩ : BufTy).Contents (Elt Ideal) := broadcastInDim S2048x1 ![0] bcast_S2048_S2048x1_0 v18
  let v23 : (⟨S1x64, .f32⟩ : BufTy).Contents (Elt Ideal) := broadcastInDim S1x64 ![1] bcast_S64_S1x64_1 v19
  let v24 : (⟨S2048x64, .f32⟩ : BufTy).Contents (Elt Ideal) := broadcastInDim S2048x64 ![0, 1] bcast_S2048x1_S2048x64_0_1 v22
  let v25 : (⟨S2048x64, .f32⟩ : BufTy).Contents (Elt Ideal) := broadcastInDim S2048x64 ![0, 1] bcast_S1x64_S2048x64_0_1 v23
  let v26 : (⟨S2048x64, .f32⟩ : BufTy).Contents (Elt Ideal) := mulf (F := Ideal) (φ := .f32) v24 v25
  let cst_2 : (⟨S_, .f32⟩ : BufTy).Contents (Elt Ideal) := constant (F := Ideal) S_ .f32 0x358637BD#32
  let v27 : (⟨S2048x64, .f32⟩ : BufTy).Contents (Elt Ideal) := broadcastInDim S2048x64 ![] bcast_S_S2048x64 cst_2
  let v28 : (⟨S2048x64, .f32⟩ : BufTy).Contents (Elt Ideal) := maximumf (F := Ideal) (φ := .f32) v26 v27
  Host.divf (F := Ideal) (φ := .f32) v21 v28

/-- The reference's final value is `tailR` of its two biased products and the labels. -/
theorem result_eq_tailR
    (x0 : (⟨S1024x49152, .f32⟩ : BufTy).Contents (Elt Ideal)) (x1 : (⟨S1024, .i32⟩ : BufTy).Contents (Elt Ideal))
    (x2 : (⟨S2048x49152, .f32⟩ : BufTy).Contents (Elt Ideal)) (x3 : (⟨S49152x2048, .f32⟩ : BufTy).Contents (Elt Ideal))
    (x4 : (⟨S2048, .f32⟩ : BufTy).Contents (Elt Ideal)) :
    val_main_v29 (F := Ideal) x0 x1 x2 x3 x4
      = tailR (val_main_v3 (F := Ideal) x0 x3 x4) (val_main_v7 (F := Ideal) x2 x3 x4) x1 := by
  simp only [val_main_v29, val_main_v28, val_main_v27, val_main_cst_2, val_main_v26, val_main_v25, val_main_v24,
    val_main_v23, val_main_v22, val_main_v21, val_main_v20, val_main_v19, val_main_call1_v1, val_main_call1_cst,
    val_main_call1_v0, val_main_v18, val_main_call0_v1, val_main_call0_cst, val_main_call0_v0, val_main_v17,
    val_main_v16, val_main_v15, val_main_v14, val_main_v13, val_main_v12, val_main_cst_1, val_main_v11,
    val_main_cst_0, val_main_v10, val_main_v9, val_main_v8, val_main_cst, tailR]

/-- An element of the support product plus bias: the row-by-column sum of products, plus the bias entry. -/
theorem zs_apply (x0 : (⟨S1024x49152, .f32⟩ : BufTy).Contents (Elt Ideal)) (x3 : (⟨S49152x2048, .f32⟩ : BufTy).Contents (Elt Ideal))
    (x4 : (⟨S2048, .f32⟩ : BufTy).Contents (Elt Ideal)) (i : Fin 1024) (j : Fin 2048) :
    val_main_v3 (F := Ideal) x0 x3 x4 (ix2 i j) = (∑ k : Fin 49152, x0 (ix2 i k) * x3 (ix2 k j)) + x4 (ix1 j) := by
  rw [val_main_v3_apply, val_main_v0_apply, val_main_v2_apply, val_main_v1_apply, Ideal.addf_def]
  refine congrArg₂ (· + ·) (Finset.sum_congr rfl fun k _ => congrArg₂ (· * ·) (congrArg x0 ?_) (congrArg x3 ?_)) (congrArg x4 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- An element of the query product plus bias: the row-by-column sum of products, plus the bias entry. -/
theorem zq_apply (x2 : (⟨S2048x49152, .f32⟩ : BufTy).Contents (Elt Ideal)) (x3 : (⟨S49152x2048, .f32⟩ : BufTy).Contents (Elt Ideal))
    (x4 : (⟨S2048, .f32⟩ : BufTy).Contents (Elt Ideal)) (i : Fin 2048) (j : Fin 2048) :
    val_main_v7 (F := Ideal) x2 x3 x4 (ix2 i j) = (∑ k : Fin 49152, x2 (ix2 i k) * x3 (ix2 k j)) + x4 (ix1 j) := by
  rw [val_main_v7_apply, val_main_v4_apply, val_main_v6_apply, val_main_v5_apply, Ideal.addf_def]
  refine congrArg₂ (· + ·) (Finset.sum_congr rfl fun k _ => congrArg₂ (· * ·) (congrArg x2 ?_) (congrArg x3 ?_)) (congrArg x4 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The reference's run, with its result written as `tailR` of the two biased products and the labels:
    every weakly fair execution terminates with the result buffer at that value and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29)
          = tailR (val_main_v3 (F := Ideal) (m ((c.tc : Thread nD τ).loc main_arg0)) (m ((c.tc : Thread nD τ).loc main_arg3)) (m ((c.tc : Thread nD τ).loc main_arg4)))
              (val_main_v7 (F := Ideal) (m ((c.tc : Thread nD τ).loc main_arg2)) (m ((c.tc : Thread nD τ).loc main_arg3)) (m ((c.tc : Thread nD τ).loc main_arg4)))
              (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans ((val_main_v29_eq (F := Ideal) m c).trans (result_eq_tailR _ _ _ _ _)), (h c).2⟩)
    (Cert.ReferenceIdeal.Value.run (F := Ideal) m ρ)

end Cert.ReferenceIdeal.RefSide

end
-- ==== Proof.Ideal.HostSide.lean ====
import proofs.«126321_j46351287059071_2_alg».proof.Proof.Gen.KernelIdeal.Launch
import proofs.«126321_j46351287059071_2_alg».proof.Proof.Gen.KernelIdeal.Regions
import proofs.«126321_j46351287059071_2_alg».proof.Proof.RefSide
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostSide

open Cert.KernelIdeal Cert.KernelIdeal.Gen Idealize.ShloMosaic Idealize.ShloMosaic.TcCoe Idealize.SL.Sem Idealize.ShloMosaic.StableHlo Idealize.ShloMosaic.ValueIdx

/-- The kernel program's host operations after the two blocked products, as one term: `zs` stands for the
    support product plus bias (1024×2048), `zq` for the query product plus bias (2048×2048), `lab` for the
    labels. Segment sums of `zs` by label divided by the segment counts give the 64 prototypes; the result is
    the matrix of inner products of the query rows with the prototypes, each divided by the larger of the
    product of the two Euclidean norms and a fixed positive constant. -/
noncomputable def tailK (zs : (⟨S1024x2048, .f32⟩ : BufTy).Contents (Elt Ideal)) (zq : (⟨S2048x2048, .f32⟩ : BufTy).Contents (Elt Ideal)) (lab : (⟨S1024, .i32⟩ : BufTy).Contents (Elt Ideal)) : (⟨S2048x64, .f32⟩ : BufTy).Contents (Elt Ideal) :=
  let cst : (⟨S_, .f32⟩ : BufTy).Contents (Elt Ideal) := constant (F := Ideal) S_ .f32 0x00000000#32
  let v8 : (⟨S64x2048, .f32⟩ : BufTy).Contents (Elt Ideal) := broadcastInDim S64x2048 ![] bcast_S_S64x2048 cst
  let v9 : (⟨S1024x1, .i32⟩ : BufTy).Contents (Elt Ideal) := broadcastInDim S1024x1 ![0] bcast_S1024_S1024x1_0 lab
  let v10 : (⟨S64x2048, .f32⟩ : BufTy).Contents (Elt Ideal) := Host.scatterAdd (F := Ideal) (φ := .f32) scatter_S64x2048_S1024x1_S1024x2048_1_0_0_1 v8 v9 zs
  let cst_0 : (⟨S_, .f32⟩ : BufTy).Contents (Elt Ideal) := constant (F := Ideal) S_ .f32 0x3F800000#32
  let v11 : (⟨S1024, .f32⟩ : BufTy).Contents (Elt Ideal) := broadcastInDim S1024 ![] bcast_S_S1024 cst_0
  let cst_1 : (⟨S_, .f32⟩ : BufTy).Contents (Elt Ideal) := constant (F := Ideal) S_ .f32 0x00000000#32
  let v12 : (⟨S64, .f32⟩ : BufTy).Contents (Elt Ideal) := broadcastInDim S64 ![] bcast_S_S64 cst_1
  let v13 : (⟨S1024x1, .i32⟩ : BufTy).Contents (Elt Ideal) := broadcastInDim S1024x1 ![0] bcast_S1024_S1024x1_0 lab
  let v14 : (⟨S64, .f32⟩ : BufTy).Contents (Elt Ideal) := Host.scatterAdd (F := Ideal) (φ := .f32) scatter_S64_S1024x1_S1024_n_0_0_1 v12 v13 v11
  let v15 : (⟨S64x1, .f32⟩ : BufTy).Contents (Elt Ideal) := broadcastInDim S64x1 ![0] bcast_S64_S64x1_0 v14
  let v16 : (⟨S64x2048, .f32⟩ : BufTy).Contents (Elt Ideal) := broadcastInDim S64x2048 ![0, 1] bcast_S64x1_S64x2048_0_1 v15
  let v17 : (⟨S64x2048, .f32⟩ : BufTy).Contents (Elt Ideal) := Host.divf (F := Ideal) (φ := .f32) v10 v16
  let n0sq : (⟨S2048x2048, .f32⟩ : BufTy).Contents (Elt Ideal) := mulf (F := Ideal) (φ := .f32) zq zq
  let n0cst : (⟨S_, .f32⟩ : BufTy).Contents (Elt Ideal) := constant (F := Ideal) S_ .f32 0x00000000#32
  let n0sum : (⟨S2048, .f32⟩ : BufTy).Contents (Elt Ideal) := Host.reduceAdd (F := Ideal) (φ := .f32) n0sq n0cst reducesTo_S2048x2048_S2048_d1 h_S_
  let v18 : (⟨S2048, .f32⟩ : BufTy).Contents (Elt Ideal) := Host.sqrt (F := Ideal) (φ := .f32) n0sum
  let n1sq : (⟨S64x2048, .f32⟩ : BufTy).Contents (Elt Ideal) := mulf (F := Ideal) (φ := .f32) v17 v17
  let n1cst : (⟨S_, .f32⟩ : BufTy).Contents (Elt Ideal) := constant (F := Ideal) S_ .f32 0x00000000#32
  let n1sum : (⟨S64, .f32⟩ : BufTy).Contents (Elt Ideal) := Host.reduceAdd (F := Ideal) (φ := .f32) n1sq n1cst reducesTo_S64x2048_S64_d1 h_S_
  let v19 : (⟨S64, .f32⟩ : BufTy).Contents (Elt Ideal) := Host.sqrt (F := Ideal) (φ := .f32) n1sum
  let v20 : (⟨S2048x64, .f32⟩ : BufTy).Contents (Elt Ideal) := transpose S2048x64 [1, 0] v17 transposes_S64x2048_S2048x64_1_0
  let v21 : (⟨S2048x64, .f32⟩ : BufTy).Contents (Elt Ideal) := Host.dotGeneral (F := Ideal) (φ₁ := .f32) (φ₂ := .f32) dot_S2048x2048_S2048x64_S2048x64_1_0_0_1_n_n none zq v20
  let v22 : (⟨S2048x1, .f32⟩ : BufTy).Contents (Elt Ideal) := broadcastInDim S2048x1 ![0] bcast_S2048_S2048x1_0 v18
  let v23 : (⟨S1x64, .f32⟩ : BufTy).Contents (Elt Ideal) := broadcastInDim S1x64 ![1] bcast_S64_S1x64_1 v19
  let v24 : (⟨S2048x64, .f32⟩ : BufTy).Contents (Elt Ideal) := broadcastInDim S2048x64 ![0, 1] bcast_S2048x1_S2048x64_0_1 v22
  let v25 : (⟨S2048x64, .f32⟩ : BufTy).Contents (Elt Ideal) := broadcastInDim S2048x64 ![0, 1] bcast_S1x64_S2048x64_0_1 v23
  let v26 : (⟨S2048x64, .f32⟩ : BufTy).Contents (Elt Ideal) := mulf (F := Ideal) (φ := .f32) v24 v25
  let cst_2 : (⟨S_, .f32⟩ : BufTy).Contents (Elt Ideal) := constant (F := Ideal) S_ .f32 0x358637BD#32
  let v27 : (⟨S2048x64, .f32⟩ : BufTy).Contents (Elt Ideal) := broadcastInDim S2048x64 ![] bcast_S_S2048x64 cst_2
  let v28 : (⟨S2048x64, .f32⟩ : BufTy).Contents (Elt Ideal) := maximumf (F := Ideal) (φ := .f32) v26 v27
  Host.divf (F := Ideal) (φ := .f32) v21 v28

set_option maxRecDepth 8192 in
set_option maxHeartbeats 2000000 in
/-- What the last host stretch leaves in the result buffer: `tailK` of the three buffers it reads. -/
theorem tail_read (W : Valuation τ sig (Elt Ideal)) :
    StableHlo.after (hostOps2 (F := Ideal)) W (Proc.devRef .tc main_v0)
      = tailK (W (Proc.devRef .tc main_call0_v2)) (W (Proc.devRef .tc main_call0_v4)) (W (Proc.devRef .tc main_arg1)) := by
  after_results_simp
  rfl

/-- The two programs' tails are the same term: their shapes and dimension records are the same literals. -/
theorem tailK_eq_tailR (zs : (⟨S1024x2048, .f32⟩ : BufTy).Contents (Elt Ideal)) (zq : (⟨S2048x2048, .f32⟩ : BufTy).Contents (Elt Ideal))
    (lab : (⟨S1024, .i32⟩ : BufTy).Contents (Elt Ideal)) :
    tailK zs zq lab = Cert.ReferenceIdeal.RefSide.tailR zs zq lab := by
  unfold tailK Cert.ReferenceIdeal.RefSide.tailR
  rfl

/-- The first host stretch leaves the weights unchanged in value (the narrowing is the identity on extended reals). -/
theorem pre_w (W : Valuation τ sig (Elt Ideal)) (k : Fin 49152) (q : Fin 2048) :
    StableHlo.after (hostOps0 (F := Ideal)) W (Proc.devRef .tc main_call0_v0) (ix2 k q) = W (Proc.devRef .tc main_arg3) (ix2 k q) := by
  after_results
  rfl

/-- … and the bias as a one-row matrix. -/
theorem pre_b (W : Valuation τ sig (Elt Ideal)) (q : Fin 2048) :
    StableHlo.after (hostOps0 (F := Ideal)) W (Proc.devRef .tc main_call0_v1) (ix2 0 q) = W (Proc.devRef .tc main_arg4) (ix1 q) := by
  after_results
  exact shapeCast_a_1a_apply (W (Proc.devRef .tc main_arg4)) shapeCasts_S2048_S1x2048 0 q

/-- The second host stretch leaves the bias as a one-row matrix again. -/
theorem pre_b' (W : Valuation τ sig (Elt Ideal)) (q : Fin 2048) :
    StableHlo.after (hostOps1 (F := Ideal)) W (Proc.devRef .tc main_call0_v3) (ix2 0 q) = W (Proc.devRef .tc main_arg4) (ix1 q) := by
  after_results
  exact shapeCast_a_1a_apply (W (Proc.devRef .tc main_arg4)) shapeCasts_S2048_S1x2048 0 q

end Cert.KernelIdeal.HostSide

end
-- ==== Proof.Ideal.Bridge.lean ====
/-
  The kernel's output arrays and the reference's biased products are the same functions: the kernel sums each
  row-by-column product block by block (48 blocks of 1024 positions), the reference in one sum over the 49152
  positions; the two agree by regrouping the sum, wherever the operand arrays agree.
-/
import proofs.«126321_j46351287059071_2_alg».proof.Proof.Ideal.K0Value
import proofs.«126321_j46351287059071_2_alg».proof.Proof.Ideal.K1Value
import proofs.«126321_j46351287059071_2_alg».proof.Proof.Ideal.Payloads
import proofs.«126321_j46351287059071_2_alg».proof.Proof.RefSide

noncomputable section

namespace Cert.KernelIdeal.Bridge

open Cert.KernelIdeal Cert.KernelIdeal.Gen Cert.KernelIdeal.Hand Idealize.ShloMosaic Idealize.ShloMosaic.TcCoe Idealize.ShloMosaic.ValueIdx
open scoped BigOperators

variable (V : (c : Dev nD) → (b : Ref sig .tc) → Buf (Elt Ideal) ((c : Thread nD τ).loc b))

/-- Region 0's output array is the reference's support product plus bias. -/
theorem G0_eq_ref (c : Dev nD)
    (x0 : (⟨Cert.ReferenceIdeal.S1024x49152, .f32⟩ : BufTy).Contents (Elt Ideal))
    (x3 : (⟨Cert.ReferenceIdeal.S49152x2048, .f32⟩ : BufTy).Contents (Elt Ideal))
    (x4 : (⟨Cert.ReferenceIdeal.S2048, .f32⟩ : BufTy).Contents (Elt Ideal))
    (h0 : ∀ (i : Fin 1024) (k : Fin 49152), lhs0 V c (ix2 i k) = x0 (ix2 i k))
    (hw : ∀ (k : Fin 49152) (q : Fin 2048), rhs0 V c (ix2 k q) = x3 (ix2 k q))
    (hb : ∀ q : Fin 2048, bias0 V c (ix2 0 q) = x4 (ix1 q)) :
    G0 V c = Cert.ReferenceIdeal.Read.val_main_v3 (F := Ideal) x0 x3 x4 := by
  funext i
  obtain ⟨R, q, rfl⟩ : ∃ (R : Fin 1024) (q : Fin 2048), i = ix2 R q := ⟨i 0, i 1, eq_ix2 i⟩
  rw [G0_apply, Cert.ReferenceIdeal.RefSide.zs_apply,
    Cert.KernelIdeal.Payloads.blocked_sum (f := fun k => x0 (ix2 R k) * x3 (ix2 k q)), hb]
  refine congrArg (· + x4 (ix1 q)) (Finset.sum_congr rfl fun kb _ => ?_)
  unfold prod0
  refine Finset.sum_congr rfl fun kk _ => ?_
  rw [h0, hw]

/-- Region 1's output array is the reference's query product plus bias. -/
theorem G1_eq_ref (c : Dev nD)
    (x2 : (⟨Cert.ReferenceIdeal.S2048x49152, .f32⟩ : BufTy).Contents (Elt Ideal))
    (x3 : (⟨Cert.ReferenceIdeal.S49152x2048, .f32⟩ : BufTy).Contents (Elt Ideal))
    (x4 : (⟨Cert.ReferenceIdeal.S2048, .f32⟩ : BufTy).Contents (Elt Ideal))
    (h2 : ∀ (i : Fin 2048) (k : Fin 49152), lhs1 V c (ix2 i k) = x2 (ix2 i k))
    (hw : ∀ (k : Fin 49152) (q : Fin 2048), rhs1 V c (ix2 k q) = x3 (ix2 k q))
    (hb : ∀ q : Fin 2048, bias1 V c (ix2 0 q) = x4 (ix1 q)) :
    G1 V c = Cert.ReferenceIdeal.Read.val_main_v7 (F := Ideal) x2 x3 x4 := by
  funext i
  obtain ⟨R, q, rfl⟩ : ∃ (R : Fin 2048) (q : Fin 2048), i = ix2 R q := ⟨i 0, i 1, eq_ix2 i⟩
  rw [G1_apply, Cert.ReferenceIdeal.RefSide.zq_apply,
    Cert.KernelIdeal.Payloads.blocked_sum (f := fun k => x2 (ix2 R k) * x3 (ix2 k q)), hb]
  refine congrArg (· + x4 (ix1 q)) (Finset.sum_congr rfl fun kb _ => ?_)
  unfold prod1
  refine Finset.sum_congr rfl fun kk _ => ?_
  rw [h2, hw]

end Cert.KernelIdeal.Bridge

end
-- ==== Proof.Ideal.KValue.lean ====
/-
  The result. At the end the result buffer holds the tail's thirty operations applied to the two encodings the regions
  left and to the labels. Region 0's output array is, index by index, the blocked sum of products plus the bias, which
  is the reference's dot_general plus broadcast bias on the support rows; region 1's likewise on the query rows; the
  labels are the launch's. So the kernel's result is the reference's tail of the reference's two encodings.
-/
import proofs.«126321_j46351287059071_2_alg».proof.Proof.Ideal.KFrame
import proofs.«126321_j46351287059071_2_alg».proof.Proof.Ideal.K0Value
import proofs.«126321_j46351287059071_2_alg».proof.Proof.Ideal.K1Value
import proofs.«126321_j46351287059071_2_alg».proof.Proof.Ideal.HostSide
import proofs.«126321_j46351287059071_2_alg».proof.Proof.Ideal.Bridge

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

open Cert.KernelIdeal.HostSide Cert.KernelIdeal.Bridge Idealize.ShloMosaic.ValueIdx

/-- Region 0's output array at the end of region 1 is the reference's support encoding. -/
theorem zs_end (c : Dev nD) :
    W4 m c (Proc.devRef .tc main_call0_v2) = Cert.ReferenceIdeal.Read.val_main_v3 (F := Ideal) (m ((c.tc : Thread nD τ).loc main_arg0)) (m ((c.tc : Thread nD τ).loc main_arg3)) (m ((c.tc : Thread nD τ).loc main_arg4)) :=
  calc W4 m c (Proc.devRef .tc main_call0_v2)
    _ = W3 m c (Proc.devRef .tc main_call0_v2) := W4_of_ne m c main_call0_v2 (by decide)
    _ = W2 m c (Proc.devRef .tc main_call0_v2) := StableHlo.after_of_writes_sub hostOps1 _ hostOps1_writes (r := main_call0_v2) (by decide)
    _ = (dat0 (E1 m) c).arrAt 3 cfg0.N := W2_arr m c 3
    _ = G0 (E1 m) c := final0 (E1 m) c
    _ = _ := G0_eq_ref (E1 m) c _ _ _
        (fun i k => congrFun (StableHlo.after_of_writes_sub hostOps0 (W0 m c) hostOps0_writes (r := main_arg0) (by decide)) (ix2 i k))
        (fun k q => pre_w (W0 m c) k q)
        (fun q => pre_b (W0 m c) q)

/-- Region 1's output array is the reference's query encoding. -/
theorem zq_end (c : Dev nD) :
    W4 m c (Proc.devRef .tc main_call0_v4) = Cert.ReferenceIdeal.Read.val_main_v7 (F := Ideal) (m ((c.tc : Thread nD τ).loc main_arg2)) (m ((c.tc : Thread nD τ).loc main_arg3)) (m ((c.tc : Thread nD τ).loc main_arg4)) :=
  calc W4 m c (Proc.devRef .tc main_call0_v4)
    _ = (dat1 (E3 m) c).arrAt 3 cfg1.N := W4_arr m c 3
    _ = G1 (E3 m) c := final1 (E3 m) c
    _ = _ := G1_eq_ref (E3 m) c _ _ _
        (fun i k => congrFun (((StableHlo.after_of_writes_sub hostOps1 (W2 m c) hostOps1_writes (r := main_arg2) (by decide)).trans
            (W2_of_ne m c main_arg2 (by decide))).trans
            (StableHlo.after_of_writes_sub hostOps0 (W0 m c) hostOps0_writes (r := main_arg2) (by decide))) (ix2 i k))
        (fun k q => (congrFun ((StableHlo.after_of_writes_sub hostOps1 (W2 m c) hostOps1_writes (r := main_call0_v0) (by decide)).trans
            (W2_in m c 1 rfl)) (ix2 k q)).trans (pre_w (W0 m c) k q))
        (fun q => (pre_b' (W2 m c) q).trans (congrFun ((W2_of_ne m c main_arg4 (by decide)).trans
            (StableHlo.after_of_writes_sub hostOps0 (W0 m c) hostOps0_writes (r := main_arg4) (by decide))) (ix1 q)))

/-- The labels reach the tail as launched. -/
theorem lab_end (c : Dev nD) : W4 m c (Proc.devRef .tc main_arg1) = m ((c.tc : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c.tc : Thread nD τ).loc main_arg1) := rfl

/-- The kernel's result at the end: the reference's tail of the reference's two encodings. -/
theorem result_end (c : Dev nD) :
    W5 m c (Proc.devRef .tc main_v0) = Cert.ReferenceIdeal.RefSide.tailR
      (Cert.ReferenceIdeal.Read.val_main_v3 (F := Ideal) (m ((c.tc : Thread nD τ).loc main_arg0)) (m ((c.tc : Thread nD τ).loc main_arg3)) (m ((c.tc : Thread nD τ).loc main_arg4)))
      (Cert.ReferenceIdeal.Read.val_main_v7 (F := Ideal) (m ((c.tc : Thread nD τ).loc main_arg2)) (m ((c.tc : Thread nD τ).loc main_arg3)) (m ((c.tc : Thread nD τ).loc main_arg4)))
      (m ((c.tc : Thread nD τ).loc main_arg1)) := by
  refine (tail_read (W4 m c)).trans ?_
  rw [zs_end, zq_end, lab_end, tailK_eq_tailR]

/-- The idealized kernel's run: it terminates, the result buffer holds the reference's value of the arguments, and the
    arguments are unchanged. -/
theorem kernel_run : θ_run (defs (F := Ideal)) (onTc (τ := τ) (main (F := Ideal))) ⟨m, fun _ => 0, ρ⟩ (fun r => ∀ c : Dev nD,
      r.2.mem ((c.tc : Thread nD τ).loc main_v0) = Cert.ReferenceIdeal.RefSide.tailR
        (Cert.ReferenceIdeal.Read.val_main_v3 (F := Ideal) (m ((c.tc : Thread nD τ).loc main_arg0)) (m ((c.tc : Thread nD τ).loc main_arg3)) (m ((c.tc : Thread nD τ).loc main_arg4)))
        (Cert.ReferenceIdeal.Read.val_main_v7 (F := Ideal) (m ((c.tc : Thread nD τ).loc main_arg2)) (m ((c.tc : Thread nD τ).loc main_arg3)) (m ((c.tc : Thread nD τ).loc main_arg4)))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v0 (by decide))).trans (result_end m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Hand

end
-- ==== Proof.lean ====
/-
  The certificate of a few-shot prototype scorer: two encodings z = x · W + b (1024 support rows and 2048 query rows of
  49152 features into 2048 dimensions), per-class means of the support encodings by a segment sum over the labels, and
  the cosine similarity of every query with every class mean, guarded by an epsilon.

  The kernel computes each encoding with a pipelined region over a grid of row tiles × 48 reduction steps: at step 0
  the accumulator is reset, at every step the product of a row tile's 1024 columns with the matching 1024 rows of W
  (rounded to bf16 once, on the host) is added to it, and at step 47 accumulator + bias is stored as the tile's rows of
  the result. The reference computes the whole product at once and adds the broadcast bias. What follows the encodings
  is the same thirty host operations in both programs.

  Frames (both instances of the kernel): each region's body is run case by case (step 0 / a middle step / step 47);
  the region's invariant holds the accumulator at what the step before left; the two regions and the three host
  stretches between and around them are chained through the contents of every unscoped buffer at each boundary, and
  the arguments are read back through that chain to the launch memory. The reference has no region: its frame is its
  run with the result dropped.

  Values (at the extended reals): rounding to bf16 is the identity; a product into a zero accumulator is a sum;
  0 + s₀ + … + s₄₇ is the sum over the 48 steps; a sum over 49152 indices is the sum over 48 blocks of 1024 — all in a
  commutative monoid, so nothing needs the inputs to be finite. Each output block is therefore the reference's
  encoding on that block, the blocks written back cover the result array, and the common tail maps equal encodings to
  equal results. The idealization rewrote nothing, so it is preserved trivially.
-/
import proofs.«126321_j46351287059071_2_alg».proof.Defs
import proofs.«126321_j46351287059071_2_alg».proof.Proof.Gen.Kernel
import proofs.«126321_j46351287059071_2_alg».proof.Proof.Gen.KernelIdeal
import proofs.«126321_j46351287059071_2_alg».proof.Proof.Gen.ReferenceIdeal
import proofs.«126321_j46351287059071_2_alg».proof.Proof.Gen.Pre_finite_inputs
import proofs.«126321_j46351287059071_2_alg».proof.Proof.Bits.KFrame
import proofs.«126321_j46351287059071_2_alg».proof.Proof.Ideal.KValue
import proofs.«126321_j46351287059071_2_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's tail of the reference's two
    encodings of the arguments. -/
theorem algebraic : Cert.algebraic_KernelIdeal_ReferenceIdeal := by
  intro m ρ m' ρ' _ hagree
  refine ⟨fun c => Cert.ReferenceIdeal.RefSide.tailR
      (Cert.ReferenceIdeal.Read.val_main_v3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (Cert.ReferenceIdeal.Read.val_main_v7 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (m ((c.tc : Thread Cert.KernelIdeal.nD Cert.KernelIdeal.τ).loc Cert.KernelIdeal.main_arg1)),
    Cert.KernelIdeal.Hand.kernel_run m ρ, ?_⟩
  refine (θ_run Cert.ReferenceIdeal.defs _ _).mono (fun _ h c => ⟨(h c).1.trans ?_, (h c).2⟩)
    (Cert.ReferenceIdeal.RefSide.ref_run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
